-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x10 : Shape := ⟨2, ![50000, 10]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg8 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S50000x128 .f32) (main_arg1 : IVec S50000x10 32) (main_arg2 : IVec S50000x10 32) (main_arg3 : FVec F S50000x128 .f32) (main_arg4 : IVec S50000x10 32) (main_arg5 : IVec S50000x10 32) (main_arg6 : FVec F S128x128 .f32) (main_arg7 : FVec F S128x128 .f32) (main_arg8 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_v13 main_v16
-- ==== Kernel.lean ====
abbrev S50000x128 : Shape := ⟨2, ![50000, 128]⟩
abbrev S50000x10 : Shape := ⟨2, ![50000, 10]⟩
abbrev S128x128 : Shape := ⟨2, ![128, 128]⟩
abbrev S128x384 : Shape := ⟨2, ![128, 384]⟩
abbrev S1x50000x128 : Shape := ⟨3, ![1, 50000, 128]⟩
abbrev S2x50000x128 : Shape := ⟨3, ![2, 50000, 128]⟩
abbrev S2x50000x384 : Shape := ⟨3, ![2, 50000, 384]⟩
abbrev S1x2000x128 : Shape := ⟨3, ![1, 2000, 128]⟩
abbrev S1x2000x384 : Shape := ⟨3, ![1, 2000, 384]⟩
abbrev S2000x128 : Shape := ⟨2, ![2000, 128]⟩
abbrev S2000x384 : Shape := ⟨2, ![2000, 384]⟩
abbrev S1x50000x10 : Shape := ⟨3, ![1, 50000, 10]⟩
abbrev S2x50000x10 : Shape := ⟨3, ![2, 50000, 10]⟩
abbrev S_ : Shape := ⟨0, ![]⟩
abbrev S2x50000x10x1 : Shape := ⟨4, ![2, 50000, 10, 1]⟩
abbrev S2x50000x10x128 : Shape := ⟨4, ![2, 50000, 10, 128]⟩
abbrev S1x400x128 : Shape := ⟨3, ![1, 400, 128]⟩
abbrev S1x400x10x128 : Shape := ⟨4, ![1, 400, 10, 128]⟩
abbrev S1x400x10 : Shape := ⟨3, ![1, 400, 10]⟩
abbrev S400x128 : Shape := ⟨2, ![400, 128]⟩
abbrev S400x10x128 : Shape := ⟨3, ![400, 10, 128]⟩
abbrev S400x10 : Shape := ⟨2, ![400, 10]⟩
abbrev S400x10x1 : Shape := ⟨3, ![400, 10, 1]⟩
abbrev S400 : Shape := ⟨1, ![400]⟩
abbrev S400x1 : Shape := ⟨2, ![400, 1]⟩

abbrev nBuf : Space → Nat
  | .hbm => 54
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S50000x10, .i32⟩
  | .hbm, ⟨2, _⟩ => ⟨S50000x10, .i32⟩
  | .hbm, ⟨3, _⟩ => ⟨S50000x128, .f32⟩
  | .hbm, ⟨4, _⟩ => ⟨S50000x10, .i32⟩
  | .hbm, ⟨5, _⟩ => ⟨S50000x10, .i32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x384, .f32⟩
  | .hbm, ⟨10, _⟩ => ⟨S1x50000x128, .f32⟩
  | .hbm, ⟨11, _⟩ => ⟨S1x50000x128, .f32⟩
  | .hbm, ⟨12, _⟩ => ⟨S2x50000x128, .f32⟩
  | .hbm, ⟨13, _⟩ => ⟨S2x50000x384, .f32⟩
  | .hbm, ⟨14, _⟩ => ⟨S2x50000x128, .f32⟩
  | .hbm, ⟨15, _⟩ => ⟨S2x50000x128, .f32⟩
  | .hbm, ⟨16, _⟩ => ⟨S2x50000x128, .f32⟩
  | .hbm, ⟨17, _⟩ => ⟨S1x50000x10, .i32⟩
  | .hbm, ⟨18, _⟩ => ⟨S1x50000x10, .i32⟩
  | .hbm, ⟨19, _⟩ => ⟨S2x50000x10, .i32⟩
  | .hbm, ⟨20, _⟩ => ⟨S1x50000x10, .i32⟩
  | .hbm, ⟨21, _⟩ => ⟨S1x50000x10, .i32⟩
  | .hbm, ⟨22, _⟩ => ⟨S2x50000x10, .i32⟩
  | .hbm, ⟨23, _⟩ => ⟨S_, .i32⟩
  | .hbm, ⟨24, _⟩ => ⟨S2x50000x10, .i32⟩
  | .hbm, ⟨25, _⟩ => ⟨S2x50000x10, .i1⟩
  | .hbm, ⟨26, _⟩ => ⟨S2x50000x10, .f32⟩
  | .hbm, ⟨27, _⟩ => ⟨S_, .i32⟩
  | .hbm, ⟨28, _⟩ => ⟨S2x50000x10, .i32⟩
  | .hbm, ⟨29, _⟩ => ⟨S2x50000x10, .i1⟩
  | .hbm, ⟨30, _⟩ => ⟨S2x50000x10, .f32⟩
  | .hbm, ⟨31, _⟩ => ⟨S_, .i32⟩
  | .hbm, ⟨32, _⟩ => ⟨S2x50000x10, .i32⟩
  | .hbm, ⟨33, _⟩ => ⟨S2x50000x10, .i1⟩
  | .hbm, ⟨34, _⟩ => ⟨S_, .i32⟩
  | .hbm, ⟨35, _⟩ => ⟨S2x50000x10, .i32⟩
  | .hbm, ⟨36, _⟩ => ⟨S2x50000x10, .i32⟩
  | .hbm, ⟨37, _⟩ => ⟨S2x50000x10, .i32⟩
  | .hbm, ⟨38, _⟩ => ⟨S2x50000x10x1, .i32⟩
  | .hbm, ⟨39, _⟩ => ⟨S2x50000x10x128, .f32⟩
  | .hbm, ⟨40, _⟩ => ⟨S_, .i32⟩
  | .hbm, ⟨41, _⟩ => ⟨S2x50000x10, .i32⟩
  | .hbm, ⟨42, _⟩ => ⟨S2x50000x10, .i1⟩
  | .hbm, ⟨43, _⟩ => ⟨S_, .i32⟩
  | .hbm, ⟨44, _⟩ => ⟨S2x50000x10, .i32⟩
  | .hbm, ⟨45, _⟩ => ⟨S2x50000x10, .i32⟩
  | .hbm, ⟨46, _⟩ => ⟨S2x50000x10, .i32⟩
  | .hbm, ⟨47, _⟩ => ⟨S2x50000x10x1, .i32⟩
  | .hbm, ⟨48, _⟩ => ⟨S2x50000x10x128, .f32⟩
  | .hbm, ⟨49, _⟩ => ⟨S2x50000x128, .f32⟩
  | .hbm, ⟨50, _⟩ => ⟨S1x50000x128, .f32⟩
  | .hbm, ⟨51, _⟩ => ⟨S50000x128, .f32⟩
  | .hbm, ⟨52, _⟩ => ⟨S1x50000x128, .f32⟩
  | .hbm, ⟨53, _⟩ => ⟨S50000x128, .f32⟩
  | .local _ .vmem, ⟨0, _⟩ => ⟨S1x2000x128, .f32⟩
  | .local _ .vmem, ⟨1, _⟩ => ⟨S1x2000x128, .f32⟩
  | .local _ .vmem, ⟨2, _⟩ => ⟨S128x384, .f32⟩
  | .local _ .vmem, ⟨3, _⟩ => ⟨S1x2000x384, .f32⟩
  | .local _ .vmem, ⟨4, _⟩ => ⟨S1x2000x384, .f32⟩
  | .local _ .vmem, ⟨5, _⟩ => ⟨S1x400x128, .f32⟩
  | .local _ .vmem, ⟨6, _⟩ => ⟨S1x400x128, .f32⟩
  | .local _ .vmem, ⟨7, _⟩ => ⟨S1x400x10x128, .f32⟩
  | .local _ .vmem, ⟨8, _⟩ => ⟨S1x400x10x128, .f32⟩
  | .local _ .vmem, ⟨9, _⟩ => ⟨S1x400x10x128, .f32⟩
  | .local _ .vmem, ⟨10, _⟩ => ⟨S1x400x10x128, .f32⟩
  | .local _ .vmem, ⟨11, _⟩ => ⟨S1x400x10, .f32⟩
  | .local _ .vmem, ⟨12, _⟩ => ⟨S1x400x10, .f32⟩
  | .local _ .vmem, ⟨13, _⟩ => ⟨S1x400x10, .f32⟩
  | .local _ .vmem, ⟨14, _⟩ => ⟨S1x400x10, .f32⟩
  | .local _ .vmem, ⟨15, _⟩ => ⟨S1x400x128, .f32⟩
  | .local _ .vmem, ⟨16, _⟩ => ⟨S1x400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 125], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x400x10x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x400x10x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x400x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x400x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  concatenates_S128x128_S128x128_S128x128_S128x384_d1 : Shape.Concatenates [S128x128, S128x128, S128x128] S128x384 1
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x2000x384_S1x2000x384_0_0_0 : ∀ a, (![0, 0, 0] : Fin 3 → Nat) a + S1x2000x384.size a ≤ S1x2000x384.size a
  h_S1x2000x384 : 0 < S1x2000x384.numel
  shapeCasts_S1x2000x384_S2000x384 : S1x2000x384.ShapeCasts S2000x384
  shapeCasts_S2000x384_S1x2000x384 : S2000x384.ShapeCasts S1x2000x384
  slices_S2x50000x384_S2x50000x128_0_0_0 : S2x50000x384.Slices ![0, 0, 0] S2x50000x128
  slices_S2x50000x384_S2x50000x128_0_0_128 : S2x50000x384.Slices ![0, 0, 128] S2x50000x128
  slices_S2x50000x384_S2x50000x128_0_0_256 : S2x50000x384.Slices ![0, 0, 256] S2x50000x128
  bcast_S50000x10_S1x50000x10_1_2 : S50000x10.BroadcastsInDim S1x50000x10 (![1, 2] : Fin 2 → Fin S1x50000x10.rank)
  concatenates_S1x50000x10_S1x50000x10_S2x50000x10_d0 : Shape.Concatenates [S1x50000x10, S1x50000x10] S2x50000x10 0
  bcast_S_S2x50000x10 : S_.BroadcastsInDim S2x50000x10 (![] : Fin 0 → Fin S2x50000x10.rank)
  bcast_S2x50000x10_S2x50000x10x1_0_1_2 : S2x50000x10.BroadcastsInDim S2x50000x10x1 (![0, 1, 2] : Fin 3 → Fin S2x50000x10x1.rank)
  inb_S1x400x128_S1x400x128_0_0_0 : ∀ a, (![0, 0, 0] : Fin 3 → Nat) a + S1x400x128.size a ≤ S1x400x128.size a
  h_S1x400x128 : 0 < S1x400x128.numel
  shapeCasts_S1x400x128_S400x128 : S1x400x128.ShapeCasts S400x128
  inb_S1x400x10x128_S1x400x10x128_0_0_0_0 : ∀ a, (![0, 0, 0, 0] : Fin 4 → Nat) a + S1x400x10x128.size a ≤ S1x400x10x128.size a
  h_S1x400x10x128 : 0 < S1x400x10x128.numel
  shapeCasts_S1x400x10x128_S400x10x128 : S1x400x10x128.ShapeCasts S400x10x128
  inb_S1x400x10_S1x400x10_0_0_0 : ∀ a, (![0, 0, 0] : Fin 3 → Nat) a + S1x400x10.size a ≤ S1x400x10.size a
  h_S1x400x10 : 0 < S1x400x10.numel
  shapeCasts_S1x400x10_S400x10 : S1x400x10.ShapeCasts S400x10
  shapeCasts_S400x10_S400x10x1 : S400x10.ShapeCasts S400x10x1
  reduces_S400x10_S400 : S400x10.Reduces [1] S400
  shapeCasts_S400_S400x1 : S400.ShapeCasts S400x1
  broadcasts_S400x10x1_S400x10x128 : S400x10x1.Broadcasts S400x10x128
  reduces_S400x10x128_S400x128 : S400x10x128.Reduces [1] S400x128
  broadcasts_S400x1_S400x128 : S400x1.Broadcasts S400x128
  shapeCasts_S400x128_S1x400x128 : S400x128.ShapeCasts S1x400x128
  slices_S2x50000x128_S1x50000x128_0_0_0 : S2x50000x128.Slices ![0, 0, 0] S1x50000x128
  shapeCasts_S1x50000x128_S50000x128 : S1x50000x128.ShapeCasts S50000x128
  slices_S2x50000x128_S1x50000x128_1_0_0 : S2x50000x128.Slices ![1, 0, 0] S1x50000x128
  dot_S2000x128_S128x384_S2000x384_1_0_0_1_n_n_wf : DotDims.WF S2000x128 S128x384 S2000x384 [1] [0] [0] [1] [] []
  gather_S2x50000x128_S2x50000x10x1_S2x50000x10x128_3_1_0_0_1_3_11128_wf : GatherDims.WF S2x50000x128 S2x50000x10x1 S2x50000x10x128 [3] [1] [0] [1] [0] 3 ![1, 1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S2x50000x128.size a
  hwx0_0 : ∀ i : grid0.Coords, EltTy.bits .f32 = 32 ∨ (Rect.block (s := S2x50000x128) S1x2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x384.size a ≤ S2x50000x384.size a
  hwx0_2 : ∀ i : grid0.Coords, EltTy.bits .f32 = 32 ∨ (Rect.block (s := S2x50000x384) S1x2000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x400x128.size a ≤ S2x50000x128.size a
  hwx1_0 : ∀ i : grid1.Coords, EltTy.bits .f32 = 32 ∨ (Rect.block (s := S2x50000x128) S1x400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x400x10x128.size a ≤ S2x50000x10x128.size a
  hwx1_1 : ∀ i : grid1.Coords, EltTy.bits .f32 = 32 ∨ (Rect.block (s := S2x50000x10x128) S1x400x10x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x400x10x128.size a ≤ S2x50000x10x128.size a
  hwx1_2 : ∀ i : grid1.Coords, EltTy.bits .f32 = 32 ∨ (Rect.block (s := S2x50000x10x128) S1x400x10x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x400x10.size a ≤ S2x50000x10.size a
  hwx1_3 : ∀ i : grid1.Coords, EltTy.bits .f32 = 32 ∨ (Rect.block (s := S2x50000x10) S1x400x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x400x10.size a ≤ S2x50000x10.size a
  hwx1_4 : ∀ i : grid1.Coords, EltTy.bits .f32 = 32 ∨ (Rect.block (s := S2x50000x10) S1x400x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x400x128.size a ≤ S2x50000x128.size a
  hwx1_5 : ∀ i : grid1.Coords, EltTy.bits .f32 = 32 ∨ (Rect.block (s := S2x50000x128) S1x400x128.size (cc1_transform_5 i) (hinb1_5 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S2x50000x128_S2x50000x10x1_S2x50000x10x128_3_1_0_0_1_3_11128 : GatherDims S2x50000x128 S2x50000x10x1 S2x50000x10x128 where
  offsetDims := [3]
  collapsedSliceDims := [1]
  operandBatchingDims := [0]
  startIndicesBatchingDims := [0]
  startIndexMap := [1]
  indexVectorDim := 3
  sliceSizes := ![1, 1, 128]
  wf := gather_S2x50000x128_S2x50000x10x1_S2x50000x10x128_3_1_0_0_1_3_11128_wf

abbrev win0_0 : Pipeline.Window sig grid0 :=
  Pipeline.Window.ofSpec (Memref.whole main_v3) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x400x10x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x400x10x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x400x10.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x400x10.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x10 : Shape := ⟨2, ![50000, 10]⟩
abbrev S128x128 : Shape := ⟨2, ![128, 128]⟩
abbrev S_ : Shape := ⟨0, ![]⟩
abbrev S50000x10x1 : Shape := ⟨3, ![50000, 10, 1]⟩
abbrev S50000x10x128 : Shape := ⟨3, ![50000, 10, 128]⟩
abbrev S50000 : Shape := ⟨1, ![50000]⟩
abbrev S50000x1 : Shape := ⟨2, ![50000, 1]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S50000x10, .i32⟩
  | 2 => ⟨S50000x10, .i32⟩
  | 3 => ⟨S50000x128, .f32⟩
  | 4 => ⟨S50000x10, .i32⟩
  | 5 => ⟨S50000x10, .i32⟩
  | 6 => ⟨S128x128, .f32⟩
  | 7 => ⟨S128x128, .f32⟩
  | 8 => ⟨S128x128, .f32⟩
  | 9 => ⟨S50000x128, .f32⟩
  | 10 => ⟨S50000x128, .f32⟩
  | 11 => ⟨S50000x128, .f32⟩
  | 12 => ⟨S_, .i32⟩
  | 13 => ⟨S50000x10, .i32⟩
  | 14 => ⟨S50000x10, .i1⟩
  | 15 => ⟨S_, .i32⟩
  | 16 => ⟨S50000x10, .i32⟩
  | 17 => ⟨S50000x10, .i1⟩
  | 18 => ⟨S_, .i32⟩
  | 19 => ⟨S50000x10, .i32⟩
  | 20 => ⟨S50000x10, .i1⟩
  | 21 => ⟨S_, .i32⟩
  | 22 => ⟨S50000x10, .i32⟩
  | 23 => ⟨S50000x10, .i32⟩
  | 24 => ⟨S50000x10, .i32⟩
  | 25 => ⟨S50000x10x1, .i32⟩
  | 26 => ⟨S50000x10x128, .f32⟩
  | 27 => ⟨S50000x10x1, .i1⟩
  | 28 => ⟨S50000x10x1, .f32⟩
  | 29 => ⟨S50000x10x128, .f32⟩
  | 30 => ⟨S50000x10x128, .f32⟩
  | 31 => ⟨S_, .i32⟩
  | 32 => ⟨S50000x10, .i32⟩
  | 33 => ⟨S50000x10, .i1⟩
  | 34 => ⟨S_, .i32⟩
  | 35 => ⟨S50000x10, .i32⟩
  | 36 => ⟨S50000x10, .i32⟩
  | 37 => ⟨S50000x10, .i32⟩
  | 38 => ⟨S50000x10x1, .i32⟩
  | 39 => ⟨S50000x10x128, .f32⟩
  | 40 => ⟨S50000x10x1, .i1⟩
  | 41 => ⟨S50000x10x1, .f32⟩
  | 42 => ⟨S50000x10x128, .f32⟩
  | 43 => ⟨S50000x10x128, .f32⟩
  | 44 => ⟨S50000x10, .i32⟩
  | 45 => ⟨S_, .i32⟩
  | 46 => ⟨S50000, .i32⟩
  | 47 => ⟨S_, .i32⟩
  | 48 => ⟨S50000, .i32⟩
  | 49 => ⟨S50000, .i32⟩
  | 50 => ⟨S50000, .f32⟩
  | 51 => ⟨S50000x1, .f32⟩
  | 52 => ⟨S50000x10, .i32⟩
  | 53 => ⟨S_, .i32⟩
  | 54 => ⟨S50000, .i32⟩
  | 55 => ⟨S_, .i32⟩
  | 56 => ⟨S50000, .i32⟩
  | 57 => ⟨S50000, .i32⟩
  | 58 => ⟨S50000, .f32⟩
  | 59 => ⟨S50000x1, .f32⟩
  | 60 => ⟨S_, .f32⟩
  | 61 => ⟨S50000x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S50000x128, .f32⟩
  | 75 => ⟨S50000x128, .f32⟩
  | 76 => ⟨S_, .i32⟩
  | 77 => ⟨S50000x10, .i32⟩
  | 78 => ⟨S50000x10, .i1⟩
  | 79 => ⟨S_, .i32⟩
  | 80 => ⟨S50000x10, .i32⟩
  | 81 => ⟨S50000x10, .i1⟩
  | 82 => ⟨S_, .i32⟩
  | 83 => ⟨S50000x10, .i32⟩
  | 84 => ⟨S50000x10, .i1⟩
  | 85 => ⟨S_, .i32⟩
  | 86 => ⟨S50000x10, .i32⟩
  | 87 => ⟨S50000x10, .i32⟩
  | 88 => ⟨S50000x10, .i32⟩
  | 89 => ⟨S50000x10x1, .i32⟩
  | 90 => ⟨S50000x10x128, .f32⟩
  | 91 => ⟨S50000x10x1, .i1⟩
  | 92 => ⟨S50000x10x1, .f32⟩
  | 93 => ⟨S50000x10x128, .f32⟩
  | 94 => ⟨S50000x10x128, .f32⟩
  | 95 => ⟨S_, .i32⟩
  | 96 => ⟨S50000x10, .i32⟩
  | 97 => ⟨S50000x10, .i1⟩
  | 98 => ⟨S_, .i32⟩
  | 99 => ⟨S50000x10, .i32⟩
  | 100 => ⟨S50000x10, .i32⟩
  | 101 => ⟨S50000x10, .i32⟩
  | 102 => ⟨S50000x10x1, .i32⟩
  | 103 => ⟨S50000x10x128, .f32⟩
  | 104 => ⟨S50000x10x1, .i1⟩
  | 105 => ⟨S50000x10x1, .f32⟩
  | 106 => ⟨S50000x10x128, .f32⟩
  | 107 => ⟨S50000x10x128, .f32⟩
  | 108 => ⟨S50000x10, .i32⟩
  | 109 => ⟨S_, .i32⟩
  | 110 => ⟨S50000, .i32⟩
  | 111 => ⟨S_, .i32⟩
  | 112 => ⟨S50000, .i32⟩
  | 113 => ⟨S50000, .i32⟩
  | 114 => ⟨S50000, .f32⟩
  | 115 => ⟨S50000x1, .f32⟩
  | 116 => ⟨S50000x10, .i32⟩
  | 117 => ⟨S_, .i32⟩
  | 118 => ⟨S50000, .i32⟩
  | 119 => ⟨S_, .i32⟩
  | 120 => ⟨S50000, .i32⟩
  | 121 => ⟨S50000, .i32⟩
  | 122 => ⟨S50000, .f32⟩
  | 123 => ⟨S50000x1, .f32⟩
  | 124 => ⟨S_, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S50000x128, .f32⟩
  | 5 => ⟨S50000x128, .f32⟩
  | 6 => ⟨S_, .f32⟩
  | 7 => ⟨S50000x128, .f32⟩
  | 8 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_18 : Ref sig .tc := ⟨.hbm, 117, rfl⟩
abbrev main_v86 : Ref sig .tc := ⟨.hbm, 118, rfl⟩
abbrev main_c_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call1_cst : Ref sig .tc := ⟨.hbm, 134, rfl⟩
abbrev main_call1_v0 : Ref sig .tc := ⟨.hbm, 135, rfl⟩
abbrev main_v99 : Ref sig .tc := ⟨.hbm, 136, rfl⟩

abbrev nD : Nat := 1
abbrev τ : Topo := Topo.v7x

variable {F : FTy → Type} [FloatOps F]

class Facts₀ : Prop where
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  bcast_S50000x10x1_S50000x10x128_0_1_2 : S50000x10x1.BroadcastsInDim S50000x10x128 (![0, 1, 2] : Fin 3 → Fin S50000x10x128.rank)
  natLt_1_32 : 1 < 32
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  reducesTo_S50000x10x128_S50000x128_d1 : S50000x10x128.ReducesTo [1] S50000x128
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S50000x10x1_S50000x10x128_2_0_n_n_0_2_1128_wf : GatherDims.WF S50000x128 S50000x10x1 S50000x10x128 [2] [0] [] [0] [] 2 ![1, 128]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S50000x10x1_S50000x10x128_2_0_n_n_0_2_1128 : GatherDims S50000x128 S50000x10x1 S50000x10x128 where
  offsetDims := [2]
  collapsedSliceDims := [0]
  operandBatchingDims := []
  startIndicesBatchingDims := []
  startIndexMap := [0]
  indexVectorDim := 2
  sliceSizes := ![1, 128]
  wf := gather_S50000x128_S50000x10x1_S50000x10x128_2_0_n_n_0_2_1128_wf

class Facts : Prop extends Facts₀ where

variable [Facts]
-- ==== Proof.KernelRegion0.lean ====
/-
  The first kernel region of the program (the projection: a block of 2000 node rows times the whole [128, 384]
  weight matrix) at region-entry contents `V` of the core's buffers.

  Per grid point t the pipeline hands the body three staging buffers: the point's [1, 2000, 128] block of the stacked
  node features, the whole weight matrix (fetched once: its block index never moves), and the output block. The body
  loads the two inputs whole, loads the output block (the value is unused), and stores ONE value over the whole output
  block: the matrix product of the two loaded blocks. So after the body the output's staging buffer is that product of
  the two input blocks, whatever it held before, and the inputs' buffers are as found. Stated here: that triple, the
  per-point proof data built from it, and the body obligation the launch theorem asks for at every grid point.
-/
import proofs.«104521_j27058293965313_1_alg».proof.Proof.Gen.Kernel.Launch
import proofs.«104521_j27058293965313_1_alg».proof.Proof.Gen.Kernel.Skeleton
import proofs.«104521_j27058293965313_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node-feature window's staging buffer holds the point's block when the body starts, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole matrix at every point: fetched at the first point, and its
    block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rz0 : Rect S1x2000x128 := Rect.unit (s := S1x2000x128) ![0, 0, 0] S1x2000x128.size inb_S1x2000x128_S1x2000x128_0_0_0
abbrev rw0 : Rect S128x384 := Rect.unit (s := S128x384) ![0, 0] S128x384.size inb_S128x384_S128x384_0_0
abbrev ro0 : Rect S1x2000x384 := Rect.unit (s := S1x2000x384) ![0, 0, 0] S1x2000x384.size inb_S1x2000x384_S1x2000x384_0_0_0

/-- What the body leaves in the output block: its one whole-block store of the product of the two loaded blocks. -/
def out0_2 (x0 : Vec F S1x2000x128 .f32) (x1 : Vec F S128x384 .f32) : Vec F S1x2000x384 .f32 :=
  View.canon [⟨ro0, k0_pay1 (View.ld x0 rz0) (View.ld x1 rw0)⟩]

/-- That one store covers the block. -/
theorem cover0_2 (p0 : Vec F S1x2000x384 .f32) (y : S1x2000x384.Idx) :
    ∃ pc ∈ ([⟨ro0, p0⟩] : List (View.Piece (Elt F) S1x2000x384 .f32)), y ∈ pc.1.set :=
  View.cover_of_tiled [⟨ro0, p0⟩] S1x2000x384.size (by rfl) y

set_option maxHeartbeats 1000000 in
/-- The body on whole staging buffers: the inputs' at contents `x0`, `x1`, the output's at anything. It ends with the inputs'
    as they were and the output's at `out0_2 x0 x1`. -/
theorem sound_kernel0 (c : Dev nD) (E : Set ℕ) (i : grid0.Coords) (arg2 : Memref sig .tc .vmem S1x2000x128 .f32) (harg2 : arg2.IsWhole)
    (arg3 : Memref sig .tc .vmem S128x384 .f32) (harg3 : arg3.IsWhole) (arg4 : Memref sig .tc .vmem S1x2000x384 .f32) (harg4 : arg4.IsWhole)
    (x0 : Vec F S1x2000x128 .f32) (x1 : Vec F S128x384 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body at point `t`
    each input's buffer at its block and the output's at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.KernelRegion1.lean ====
/-
  The second kernel region of the program (the combine step: per block of 400 nodes, the masked mean of the gathered
  neighbour rows, twice, added to the node's own projection and cut below at zero) at region-entry contents `V`.

  Per grid point the pipeline hands the body six staging buffers: the point's blocks of the node projections [1,400,128],
  of the two gathered neighbour tensors [1,400,10,128], of the two masks [1,400,10], and the output block [1,400,128].
  The body loads the five inputs whole, loads the output block (the value is unused) and stores ONE value over the whole
  output block: the combine arithmetic of the five loaded blocks. So after the body the output's staging buffer is that
  function of the five input blocks and the inputs' buffers are as found.
-/
import proofs.«104521_j27058293965313_1_alg».proof.Proof.Gen.Kernel.Launch
import proofs.«104521_j27058293965313_1_alg».proof.Proof.Gen.Kernel.Skeleton
import proofs.«104521_j27058293965313_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block when the body starts (each is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rn1 : Rect S1x400x128 := Rect.unit (s := S1x400x128) ![0, 0, 0] S1x400x128.size inb_S1x400x128_S1x400x128_0_0_0
abbrev rf1 : Rect S1x400x10x128 := Rect.unit (s := S1x400x10x128) ![0, 0, 0, 0] S1x400x10x128.size inb_S1x400x10x128_S1x400x10x128_0_0_0_0
abbrev rm1 : Rect S1x400x10 := Rect.unit (s := S1x400x10) ![0, 0, 0] S1x400x10.size inb_S1x400x10_S1x400x10_0_0_0

/-- What the body leaves in the output block: its one whole-block store of the combine arithmetic of the five loaded blocks. -/
def out1_5 (x0 : Vec F S1x400x128 .f32) (x1 x2 : Vec F S1x400x10x128 .f32) (x3 x4 : Vec F S1x400x10 .f32) : Vec F S1x400x128 .f32 :=
  View.canon [⟨rn1, k1_pay1 (k1_pay2 (View.ld x0 rn1) (View.ld x1 rf1) (View.ld x2 rf1) (View.ld x3 rm1) (View.ld x4 rm1))⟩]

/-- That one store covers the block. -/
theorem cover1_5 (p0 : Vec F S1x400x128 .f32) (y : S1x400x128.Idx) :
    ∃ pc ∈ ([⟨rn1, p0⟩] : List (View.Piece (Elt F) S1x400x128 .f32)), y ∈ pc.1.set :=
  View.cover_of_tiled [⟨rn1, p0⟩] S1x400x128.size (by rfl) y

set_option maxHeartbeats 1000000 in
/-- The body on whole staging buffers: the inputs' at contents `x0 … x4`, the output's at anything. It ends with the inputs'
    as they were and the output's at `out1_5 x0 … x4`. -/
theorem sound_kernel1 (c : Dev nD) (E : Set ℕ) (i : grid1.Coords) (arg2 : Memref sig .tc .vmem S1x400x128 .f32) (harg2 : arg2.IsWhole)
    (arg3 : Memref sig .tc .vmem S1x400x10x128 .f32) (harg3 : arg3.IsWhole) (arg4 : Memref sig .tc .vmem S1x400x10x128 .f32) (harg4 : arg4.IsWhole)
    (arg5 : Memref sig .tc .vmem S1x400x10 .f32) (harg5 : arg5.IsWhole) (arg6 : Memref sig .tc .vmem S1x400x10 .f32) (harg6 : arg6.IsWhole)
    (arg7 : Memref sig .tc .vmem S1x400x128 .f32) (harg7 : arg7.IsWhole)
    (x0 : Vec F S1x400x128 .f32) (x1 x2 : Vec F S1x400x10x128 .f32) (x3 x4 : Vec F S1x400x10 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__combine_kernel i arg2 harg2 arg3 harg3 arg4 harg4 arg5 harg5 arg6 harg6 arg7 harg7) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the region's pipeline on core `c`: the arrays as the region finds them; after the body at point `t`
    each input's buffer at its block and the output's at the combine arithmetic of the five input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.KernelRun.lean ====
/-
  The whole run of the program on a core: three stretches of host operations around the two kernel regions.

  The contents of the core's buffers are followed from the launch memory through the five items: a stretch of host
  operations replaces them by the fold of its operations; a kernel region leaves every buffer as entered except its
  arrays, which end at what the pipeline's write-backs leave (an input array as entered, the output array at the fold
  of the blocks written back). Each region is entered with every unscoped buffer held whole at the current contents
  beside the generator register and the core owing nothing, and is left the same way at the next contents. The launch
  theorem for a list of such items then says: every weakly fair execution terminates, faults nowhere, and the final
  memory holds, at every unscoped buffer, the last contents of this fold. The frame (the arguments end as launched)
  follows because no item writes an argument.
-/
import proofs.«104521_j27058293965313_1_alg».proof.Proof.KernelRegion0
import proofs.«104521_j27058293965313_1_alg».proof.Proof.KernelRegion1
import proofs.«104521_j27058293965313_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch of host operations: the contents at the return. -/
abbrev W5 : Dev nD → Valuation τ sig (Elt F) := fun c => StableHlo.after hostOps2 (W4 m ρ c)

/-! ### The arguments end as launched: no host operation writes one and no region's output array is one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- Kernel region 0 over the thread state: entered from every unscoped buffer at `W1`, left at `W2`. Its arrays are split
    out of the unscoped buffers on entry and put back at their exit contents; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at `W3`, left at `W4`. Its arrays are split
    out of the unscoped buffers on entry and put back at their exit contents; the generator register goes into the class
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and the final memory holds every unscoped buffer of every core at the last contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run m ρ)

end Cert.Kernel.Run

end
-- ==== Proof.KernelIdealRegion0.lean ====
/-
  The first kernel region of the program (the projection: a block of 2000 node rows times the whole [128, 384]
  weight matrix) at region-entry contents `V` of the core's buffers.

  Per grid point t the pipeline hands the body three staging buffers: the point's [1, 2000, 128] block of the stacked
  node features, the whole weight matrix (fetched once: its block index never moves), and the output block. The body
  loads the two inputs whole, loads the output block (the value is unused), and stores ONE value over the whole output
  block: the matrix product of the two loaded blocks. So after the body the output's staging buffer is that product of
  the two input blocks, whatever it held before, and the inputs' buffers are as found. Stated here: that triple, the
  per-point proof data built from it, and the body obligation the launch theorem asks for at every grid point.
-/
import proofs.«104521_j27058293965313_1_alg».proof.Proof.Gen.KernelIdeal.Launch
import proofs.«104521_j27058293965313_1_alg».proof.Proof.Gen.KernelIdeal.Skeleton
import proofs.«104521_j27058293965313_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node-feature window's staging buffer holds the point's block when the body starts, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole matrix at every point: fetched at the first point, and its
    block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rz0 : Rect S1x2000x128 := Rect.unit (s := S1x2000x128) ![0, 0, 0] S1x2000x128.size inb_S1x2000x128_S1x2000x128_0_0_0
abbrev rw0 : Rect S128x384 := Rect.unit (s := S128x384) ![0, 0] S128x384.size inb_S128x384_S128x384_0_0
abbrev ro0 : Rect S1x2000x384 := Rect.unit (s := S1x2000x384) ![0, 0, 0] S1x2000x384.size inb_S1x2000x384_S1x2000x384_0_0_0

/-- What the body leaves in the output block: its one whole-block store of the product of the two loaded blocks. -/
def out0_2 (x0 : Vec F S1x2000x128 .f32) (x1 : Vec F S128x384 .f32) : Vec F S1x2000x384 .f32 :=
  View.canon [⟨ro0, k0_pay1 (View.ld x0 rz0) (View.ld x1 rw0)⟩]

/-- That one store covers the block. -/
theorem cover0_2 (p0 : Vec F S1x2000x384 .f32) (y : S1x2000x384.Idx) :
    ∃ pc ∈ ([⟨ro0, p0⟩] : List (View.Piece (Elt F) S1x2000x384 .f32)), y ∈ pc.1.set :=
  View.cover_of_tiled [⟨ro0, p0⟩] S1x2000x384.size (by rfl) y

set_option maxHeartbeats 1000000 in
/-- The body on whole staging buffers: the inputs' at contents `x0`, `x1`, the output's at anything. It ends with the inputs'
    as they were and the output's at `out0_2 x0 x1`. -/
theorem sound_kernel0 (c : Dev nD) (E : Set ℕ) (i : grid0.Coords) (arg2 : Memref sig .tc .vmem S1x2000x128 .f32) (harg2 : arg2.IsWhole)
    (arg3 : Memref sig .tc .vmem S128x384 .f32) (harg3 : arg3.IsWhole) (arg4 : Memref sig .tc .vmem S1x2000x384 .f32) (harg4 : arg4.IsWhole)
    (x0 : Vec F S1x2000x128 .f32) (x1 : Vec F S128x384 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body at point `t`
    each input's buffer at its block and the output's at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KernelIdealRegion1.lean ====
/-
  The second kernel region of the program (the combine step: per block of 400 nodes, the masked mean of the gathered
  neighbour rows, twice, added to the node's own projection and cut below at zero) at region-entry contents `V`.

  Per grid point the pipeline hands the body six staging buffers: the point's blocks of the node projections [1,400,128],
  of the two gathered neighbour tensors [1,400,10,128], of the two masks [1,400,10], and the output block [1,400,128].
  The body loads the five inputs whole, loads the output block (the value is unused) and stores ONE value over the whole
  output block: the combine arithmetic of the five loaded blocks. So after the body the output's staging buffer is that
  function of the five input blocks and the inputs' buffers are as found.
-/
import proofs.«104521_j27058293965313_1_alg».proof.Proof.Gen.KernelIdeal.Launch
import proofs.«104521_j27058293965313_1_alg».proof.Proof.Gen.KernelIdeal.Skeleton
import proofs.«104521_j27058293965313_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block when the body starts (each is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rn1 : Rect S1x400x128 := Rect.unit (s := S1x400x128) ![0, 0, 0] S1x400x128.size inb_S1x400x128_S1x400x128_0_0_0
abbrev rf1 : Rect S1x400x10x128 := Rect.unit (s := S1x400x10x128) ![0, 0, 0, 0] S1x400x10x128.size inb_S1x400x10x128_S1x400x10x128_0_0_0_0
abbrev rm1 : Rect S1x400x10 := Rect.unit (s := S1x400x10) ![0, 0, 0] S1x400x10.size inb_S1x400x10_S1x400x10_0_0_0

/-- What the body leaves in the output block: its one whole-block store of the combine arithmetic of the five loaded blocks. -/
def out1_5 (x0 : Vec F S1x400x128 .f32) (x1 x2 : Vec F S1x400x10x128 .f32) (x3 x4 : Vec F S1x400x10 .f32) : Vec F S1x400x128 .f32 :=
  View.canon [⟨rn1, k1_pay1 (k1_pay2 (View.ld x0 rn1) (View.ld x1 rf1) (View.ld x2 rf1) (View.ld x3 rm1) (View.ld x4 rm1))⟩]

/-- That one store covers the block. -/
theorem cover1_5 (p0 : Vec F S1x400x128 .f32) (y : S1x400x128.Idx) :
    ∃ pc ∈ ([⟨rn1, p0⟩] : List (View.Piece (Elt F) S1x400x128 .f32)), y ∈ pc.1.set :=
  View.cover_of_tiled [⟨rn1, p0⟩] S1x400x128.size (by rfl) y

set_option maxHeartbeats 1000000 in
/-- The body on whole staging buffers: the inputs' at contents `x0 … x4`, the output's at anything. It ends with the inputs'
    as they were and the output's at `out1_5 x0 … x4`. -/
theorem sound_kernel1 (c : Dev nD) (E : Set ℕ) (i : grid1.Coords) (arg2 : Memref sig .tc .vmem S1x400x128 .f32) (harg2 : arg2.IsWhole)
    (arg3 : Memref sig .tc .vmem S1x400x10x128 .f32) (harg3 : arg3.IsWhole) (arg4 : Memref sig .tc .vmem S1x400x10x128 .f32) (harg4 : arg4.IsWhole)
    (arg5 : Memref sig .tc .vmem S1x400x10 .f32) (harg5 : arg5.IsWhole) (arg6 : Memref sig .tc .vmem S1x400x10 .f32) (harg6 : arg6.IsWhole)
    (arg7 : Memref sig .tc .vmem S1x400x128 .f32) (harg7 : arg7.IsWhole)
    (x0 : Vec F S1x400x128 .f32) (x1 x2 : Vec F S1x400x10x128 .f32) (x3 x4 : Vec F S1x400x10 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__combine_kernel i arg2 harg2 arg3 harg3 arg4 harg4 arg5 harg5 arg6 harg6 arg7 harg7) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the region's pipeline on core `c`: the arrays as the region finds them; after the body at point `t`
    each input's buffer at its block and the output's at the combine arithmetic of the five input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KernelIdealRun.lean ====
/-
  The whole run of the program on a core: three stretches of host operations around the two kernel regions.

  The contents of the core's buffers are followed from the launch memory through the five items: a stretch of host
  operations replaces them by the fold of its operations; a kernel region leaves every buffer as entered except its
  arrays, which end at what the pipeline's write-backs leave (an input array as entered, the output array at the fold
  of the blocks written back). Each region is entered with every unscoped buffer held whole at the current contents
  beside the generator register and the core owing nothing, and is left the same way at the next contents. The launch
  theorem for a list of such items then says: every weakly fair execution terminates, faults nowhere, and the final
  memory holds, at every unscoped buffer, the last contents of this fold. The frame (the arguments end as launched)
  follows because no item writes an argument.
-/
import proofs.«104521_j27058293965313_1_alg».proof.Proof.KernelIdealRegion0
import proofs.«104521_j27058293965313_1_alg».proof.Proof.KernelIdealRegion1
import proofs.«104521_j27058293965313_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch of host operations: the contents at the return. -/
abbrev W5 : Dev nD → Valuation τ sig (Elt F) := fun c => StableHlo.after hostOps2 (W4 m ρ c)

/-! ### The arguments end as launched: no host operation writes one and no region's output array is one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- Kernel region 0 over the thread state: entered from every unscoped buffer at `W1`, left at `W2`. Its arrays are split
    out of the unscoped buffers on entry and put back at their exit contents; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at `W3`, left at `W4`. Its arrays are split
    out of the unscoped buffers on entry and put back at their exit contents; the generator register goes into the class
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and the final memory holds every unscoped buffer of every core at the last contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run m ρ)

end Cert.KernelIdeal.Run

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.BodyValueProj.lean ====
/-
  The projection body's value at an index, over the extended reals.

  The body reads a block of 2000 rows of 128 features and a 128 × 384 weight block, multiplies them into a zero
  accumulator, and stores the product. Dropping and restoring the leading unit axis moves no element, and rounding to
  the narrower float format is the identity at the exact values, so entry (0, r, j) of the stored block is the sum
  over the 128 features f of block (0, r, f) · weight (f, j).
-/
import proofs.«104521_j27058293965313_1_alg».proof.Proof.Gen.KernelIdeal.Skeleton
import proofs.«104521_j27058293965313_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Idealize.ShloMosaic Idealize.ShloMosaic.ValueIdx Cert.KernelIdeal

/-- Entry (0, r, j) of the projection body's stored block: row r of the feature block times column j of the weights. -/
theorem proj_apply (v0 : Vec Ideal S1x2000x128 .f32) (v3 : Vec Ideal S128x384 .f32) (r : Fin 2000) (j : Fin 384) :
    Gen.k0_pay1 (F := Ideal) v0 v3 (ix3 (0 : Fin 1) r j) = ∑ f : Fin 128, v0 (ix3 (0 : Fin 1) r f) * v3 (ix2 f j) := by
  unfold Gen.k0_pay1
  refine (shapeCast_ab_1ab_apply _ _ (0 : Fin 1) r j).trans ?_
  refine (Cert.LibPlainMatmul.matmul_eq_plain_zero_apply _ rfl none _ _ r j).trans ?_
  refine Finset.sum_congr rfl fun f _ => ?_
  rw [truncf_apply, truncf_apply, shapeCast_1ab_ab_apply, shapeCast_self]

end Cert.KernelIdeal.BodyValue

end
-- ==== Proof.KernelIdealValue0.lean ====
/-
  What the first kernel region leaves in its output array, as one function of the arrays it is entered with.

  Point t of the 2 × 25 grid writes back the [1, 2000, 384] block (p, i) of the output. The body's value there is the
  product of block (p, i) of the stacked node features with the whole weight matrix, so entry (p, n, j) of the block
  written back is the sum over f of Zb(p, n, f) · Wc(f, j): the block, read through its rectangle, is a block of ONE
  whole-array function. The fifty blocks tile the [2, 50000, 384] array, so after the region the array is that function.
-/
import proofs.«104521_j27058293965313_1_alg».proof.Proof.KernelIdealRegion0
import proofs.«104521_j27058293965313_1_alg».proof.Proof.BodyValueProj
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Entry (p, n, j) of the stacked node features times the concatenated weight matrix. -/
def G0 (Zb : S2x50000x128.Idx → EReal) (Wc : S128x384.Idx → EReal) : S2x50000x384.Idx → EReal :=
  fun i => ∑ f : Fin 128, Zb (ix3 (⟨(i 0).val, (i 0).isLt⟩ : Fin 2) (⟨(i 1).val, (i 1).isLt⟩ : Fin 50000) f)
    * Wc (ix2 f (⟨(i 2).val, (i 2).isLt⟩ : Fin 384))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the feature window's block moves with the output's along the protein and row
    axes; the weight window's block never moves; the output's block indices stay in range. -/
theorem idx_facts0 : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0
    ∧ win0_2.index t (0 : Fin 3) ≤ 1 ∧ win0_2.index t (1 : Fin 3) ≤ 24 :=
  (by decide +kernel : ∀ t : Fin grid0.N, _)

/-- Every block (p, i) of the output is some point's. -/
theorem idx_onto0 : ∀ (q0 : Fin 2) (q1 : Fin 25), ∃ t : Fin cfg0.N, win0_2.index t = ![q0.val, q1.val, 0] :=
  (by decide +kernel : ∀ (q0 : Fin 2) (q1 : Fin 25), ∃ t : Fin grid0.N, win0_2.index t = ![q0.val, q1.val, 0])

/-- What point `t` writes back is block `t` of `G0` of the arrays as the region finds them. -/
theorem flushed0_eq (c : Dev nD) (t : Fin cfg0.N) :
    (dat0 V c).flushed 2 t = ((cfg0.win 2).blk t).view.read (Elt Ideal) (G0 (V c main_v3) (V c main_v0)) := by
  show (cfg0.win 2).cut (grid0.coords t) ((dat0 V c).after 2 t) = _
  rw [after0_2]
  unfold out0_2
  rw [View.canon_unit_zero hz3]
  simp only [View.ld_unit_zero (S := S1x2000x128) hz3, View.ld_unit_zero (S := S128x384) hz2]
  obtain ⟨e0, e1, e2, e3, e4, e5, e6, e7⟩ := idx_facts0 t
  refine funext fun (j : S1x2000x384.Idx) => ?_
  obtain ⟨a, r, q, rfl⟩ : ∃ (a : Fin 1) (r : Fin 2000) (q : Fin 384), j = ix3 a r q := ⟨j 0, j 1, j 2, eq_ix3 j⟩
  obtain rfl : a = 0 := Subsingleton.elim _ _
  show k0_pay1 (F := Ideal) (iblk0 V c 0 t) (iblk0 V c 1 t) (ix3 (0 : Fin 1) r q)
    = G0 (V c main_v3) (V c main_v0) (((cfg0.win 2).blk t).view.emb (ix3 (0 : Fin 1) r q))
  refine (BodyValue.proj_apply _ _ r q).trans ?_
  unfold G0
  refine Finset.sum_congr rfl fun f _ => ?_
  have h0 : iblk0 V c 0 t (ix3 (0 : Fin 1) r f)
      = V c main_v3 (ix3 (⟨((((cfg0.win 2).blk t).view.emb (ix3 (0 : Fin 1) r q)) 0).val, ((((cfg0.win 2).blk t).view.emb (ix3 (0 : Fin 1) r q)) 0).isLt⟩ : Fin 2)
          (⟨((((cfg0.win 2).blk t).view.emb (ix3 (0 : Fin 1) r q)) 1).val, ((((cfg0.win 2).blk t).view.emb (ix3 (0 : Fin 1) r q)) 1).isLt⟩ : Fin 50000) f) := by
    show V c main_v3 (((cfg0.win 0).blk t).view.emb (ix3 (0 : Fin 1) r f)) = _
    refine congrArg _ (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 2000 + 1 * r.val = win0_2.index t (1 : Fin 3) * 2000 + 1 * r.val; omega
    | ⟨2, _⟩ => show win0_0.index t (2 : Fin 3) * 128 + 1 * f.val = f.val; omega
  have h1 : iblk0 V c 1 t (ix2 f q)
      = V c main_v0 (ix2 f (⟨((((cfg0.win 2).blk t).view.emb (ix3 (0 : Fin 1) r q)) 2).val, ((((cfg0.win 2).blk t).view.emb (ix3 (0 : Fin 1) r q)) 2).isLt⟩ : Fin 384)) := by
    show V c main_v0 (((cfg0.win 1).blk t).view.emb (ix2 f q)) = _
    refine congrArg _ (funext fun a => Fin.ext ?_)
    match a with
    | ⟨0, _⟩ => show win0_1.index t (0 : Fin 2) * 128 + 1 * f.val = f.val; omega
    | ⟨1, _⟩ => show win0_1.index t (1 : Fin 2) * 384 + 1 * q.val = win0_2.index t (2 : Fin 3) * 384 + 1 * q.val; omega
  rw [h0, h1]

/-- An index of the output array is in point `t`'s block iff each coordinate is in the block's range on its axis. -/
theorem mem_blk0 (t : Fin cfg0.N) (i : S2x50000x384.Idx) :
    i ∈ ((cfg0.win 2).blk t).view.set ↔ ∀ a : Fin 3, win0_2.index t a * S1x2000x384.size a ≤ (i a).val ∧ (i a).val < win0_2.index t a * S1x2000x384.size a + S1x2000x384.size a := by
  show i ∈ ((View.whole main_v4).slice (win0_2.rect t)).set ↔ _
  rw [View.set_slice_whole, Rect.mem_set_unit]
  exact Iff.rfl

/-- The fifty blocks cover the output array. -/
theorem cover0 (i : S2x50000x384.Idx) : ∃ t : Fin cfg0.N, (cfg0.win 2).flush t = true ∧ i ∈ ((cfg0.win 2).blk t).view.set := by
  have hi0 : (i 0).val < 2 := (i 0).isLt
  have hi1 : (i 1).val < 50000 := (i 1).isLt
  have hi2 : (i 2).val < 384 := (i 2).isLt
  obtain ⟨t, ht⟩ := idx_onto0 ⟨(i 0).val, hi0⟩ ⟨(i 1).val / 2000, by omega⟩
  have q0 : win0_2.index t (0 : Fin 3) = (i 0).val := congrFun ht 0
  have q1 : win0_2.index t (1 : Fin 3) = (i 1).val / 2000 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 384 ≤ (i 2).val ∧ (i 2).val < win0_2.index t (2 : Fin 3) * 384 + 384; omega

/-- After the region its output array is `G0` of the arrays it was entered with. -/
theorem final0 (c : Dev nD) : (dat0 V c).arrAt 2 cfg0.N = G0 (V c main_v3) (V c main_v0) :=
  (dat0 V c).arrAt_eq_of_cover 2 (G0 (V c main_v3) (V c main_v0)) (fun t _ => flushed0_eq V c t) cover0

end Cert.KernelIdeal.KValue

end
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.BodyValueCombine.lean ====
/-
  The combine body's value at an index, over the extended reals.

  For each of 400 nodes the body holds the node's own projected row (128 channels), two tables of ten gathered
  neighbour rows, and two rows of ten slot weights. Each aggregate is the sum over the ten slots of the neighbour row
  times the slot's weight, divided by the larger of the sum of the weights and one; the stored value is the node's row
  plus the two aggregates, cut below at zero. Dropping or restoring a leading unit axis, viewing a matrix with a
  trailing unit axis and repeating it along that axis move no element, so at entry (0, r, c) every operand is read at
  the evident index and the two sums along the slot axis are plain finite sums.
-/
import proofs.«104521_j27058293965313_1_alg».proof.Proof.Gen.KernelIdeal.Skeleton
import proofs.«104521_j27058293965313_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Idealize.ShloMosaic Idealize.ShloMosaic.ValueIdx Cert.KernelIdeal

section Layout
variable {α : Type}

/-- An a × b matrix viewed with a trailing unit axis reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An a × b × 1 array repeated along a last axis of extent c reads, at (p, q, e), the array at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Layout

/-- At the exact values, summing an a × b × c array along its middle axis gives, at (r, e), the sum over that axis. -/
theorem midSum_apply {a b c : ℕ} (v : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (r : Fin a) (e : Fin c) :
    multiReduction .add [1] ⟨2, ![a, c]⟩ v acc h hφ hacc (ix2 r e) = ∑ k : Fin b, v (ix3 r k e) := by
  refine (Ideal.multiReduction_add_single v acc h hφ hacc (ix2 r e)).trans ?_
  refine Finset.sum_congr rfl fun k _ => congrArg v ?_
  funext ax
  match ax with
  | ⟨0, _⟩ => exact Fin.ext rfl
  | ⟨1, _⟩ => exact Fin.ext rfl
  | ⟨2, _⟩ => exact Fin.ext rfl

/-- The divisor of an aggregate at (r, c): the larger of the sum of node r's ten slot weights and one. -/
theorem den_apply (v6 : Vec Ideal S1x400x10 .f32) (h1 : S1x400x10.ShapeCasts S400x10) (h2 : S400x10.Reduces [1] S400)
    (hφ : FKind.Formats .f32) (hacc : (0x00000000#32 : BitVec 32) = FKind.add.neutral .f32 hφ)
    (h3 : S400.ShapeCasts S400x1) (h4 : S400x1.Broadcasts S400x128) (r : Fin 400) (c : Fin 128) :
    broadcastTo S400x128
        (maximumf (shapeCast S400x1 (multiReduction .add [1] S400 (shapeCast S400x10 v6 h1) 0x00000000#32 h2 hφ hacc) h3)
          (broadcast S400x1 (Scalar.ofBits .f32 0x3F800000#32 : Ideal .f32))) h4 (ix2 r c)
      = max (∑ k : Fin 10, v6 (ix3 (0 : Fin 1) r k)) (Ideal.ofBits .f32 0x3F800000#32) := by
  refine (Cert.Column.broadcastTo_a1_ab_apply _ h4 r c).trans ?_
  refine (maximumf_apply _ _ _).trans ?_
  refine congrArg₂ max ?_ rfl
  refine (Cert.Column.shapeCast_a_a1_apply _ h3 r (0 : Fin 1)).trans ?_
  refine (Cert.Column.laneSum_apply _ _ h2 hφ hacc r).trans ?_
  exact Finset.sum_congr rfl fun k _ => shapeCast_1ab_ab_apply v6 h1 r k

/-- The dividend of an aggregate at (r, c): the sum over node r's ten slots of the neighbour row's channel c times
    the slot's weight. -/
theorem num_apply (v2 : Vec Ideal S1x400x10x128 .f32) (v6 : Vec Ideal S1x400x10 .f32)
    (h1 : S1x400x10x128.ShapeCasts S400x10x128) (h2 : S1x400x10.ShapeCasts S400x10) (h3 : S400x10.ShapeCasts S400x10x1)
    (h4 : S400x10x1.Broadcasts S400x10x128) (h5 : S400x10x128.Reduces [1] S400x128)
    (hφ : FKind.Formats .f32) (hacc : (0x00000000#32 : BitVec 32) = FKind.add.neutral .f32 hφ) (r : Fin 400) (c : Fin 128) :
    multiReduction (F := Ideal) .add [1] S400x128
        (mulf (shapeCast S400x10x128 v2 h1) (broadcastTo S400x10x128 (shapeCast S400x10x1 (shapeCast S400x10 v6 h2) h3) h4))
        0x00000000#32 h5 hφ hacc (ix2 r c)
      = ∑ k : Fin 10, v2 (ix4 (0 : Fin 1) r k c) * v6 (ix3 (0 : Fin 1) r k) := by
  refine (midSum_apply _ _ h5 hφ hacc r c).trans ?_
  refine Finset.sum_congr rfl fun k _ => ?_
  refine (mulf_apply _ _ _).trans ?_
  refine congrArg₂ (· * ·) ?_ ?_
  · exact shapeCast_1abc_abc_apply v2 h1 r k c
  · refine (broadcastTo_ab1_abc_apply _ h4 r k c).trans ?_
    refine (shapeCast_ab_ab1_apply _ h3 r k (0 : Fin 1)).trans ?_
    exact shapeCast_1ab_ab_apply v6 h2 r k

/-- Entry (0, r, c) of the combine body's stored block: the node's own value plus the two aggregates, cut below at
    zero. -/
theorem combine_apply (v0 : Vec Ideal S1x400x128 .f32) (v2 v4 : Vec Ideal S1x400x10x128 .f32)
    (v6 v8 : Vec Ideal S1x400x10 .f32) (r : Fin 400) (c : Fin 128) :
    Gen.k1_pay1 (F := Ideal) (Gen.k1_pay2 v0 v2 v4 v6 v8) (ix3 (0 : Fin 1) r c)
      = max ((v0 (ix3 (0 : Fin 1) r c)
            + Ideal.div (∑ k : Fin 10, v2 (ix4 (0 : Fin 1) r k c) * v6 (ix3 (0 : Fin 1) r k))
                (max (∑ k : Fin 10, v6 (ix3 (0 : Fin 1) r k)) (Ideal.ofBits .f32 0x3F800000#32)))
            + Ideal.div (∑ k : Fin 10, v4 (ix4 (0 : Fin 1) r k c) * v8 (ix3 (0 : Fin 1) r k))
                (max (∑ k : Fin 10, v8 (ix3 (0 : Fin 1) r k)) (Ideal.ofBits .f32 0x3F800000#32)))
          (Ideal.ofBits .f32 0x00000000#32) := by
  unfold Gen.k1_pay1 Gen.k1_pay2
  refine (shapeCast_ab_1ab_apply _ _ (0 : Fin 1) r c).trans ?_
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact shapeCast_1ab_ab_apply v0 _ r c
    · refine (divf_apply _ _ _).trans ?_
      exact congrArg₂ Ideal.div (num_apply v2 v6 _ _ _ _ _ _ _ r c) (den_apply v6 _ _ _ _ _ _ r c)
  · refine (divf_apply _ _ _).trans ?_
    exact congrArg₂ Ideal.div (num_apply v4 v8 _ _ _ _ _ _ _ r c) (den_apply v8 _ _ _ _ _ _ r c)

end Cert.KernelIdeal.BodyValue

end
-- ==== Proof.KernelIdealValue1.lean ====
/-
  What the second kernel region leaves in its output array, as one function of the arrays it is entered with.

  Point t of the 2 × 125 grid writes back the [1, 400, 128] block (p, i) of the output; the five input windows' blocks
  at t are the blocks (p, i) of their arrays. The body's value at row r, channel c of the block is the combine
  arithmetic of the five input blocks' entries at row r, so the block written back, read through its rectangle, is a
  block of ONE whole-array function of the five arrays. The 250 blocks tile the [2, 50000, 128] array, so after the
  region the array is that function.
-/
import proofs.«104521_j27058293965313_1_alg».proof.Proof.KernelIdealRegion1
import proofs.«104521_j27058293965313_1_alg».proof.Proof.BodyValueCombine
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The combine arithmetic at one node and channel: the node's own signal plus the two masked means over the ten
    neighbour slots (masked sum over the count of the mask, the count at least one), cut below at zero. -/
def comb (ns : EReal) (sf ms df md : Fin 10 → EReal) : EReal :=
  max ((ns + Ideal.div (∑ k : Fin 10, sf k * ms k) (max (∑ k : Fin 10, ms k) (Ideal.ofBits .f32 0x3F800000#32)))
      + Ideal.div (∑ k : Fin 10, df k * md k) (max (∑ k : Fin 10, md k) (Ideal.ofBits .f32 0x3F800000#32)))
    (Ideal.ofBits .f32 0x00000000#32)

/-- Entry (p, n, c) of the combined output from the five arrays the region reads. -/
def G1 (NS : S2x50000x128.Idx → EReal) (SF DF : S2x50000x10x128.Idx → EReal) (MS MD : S2x50000x10.Idx → EReal) :
    S2x50000x128.Idx → EReal :=
  fun i => comb (NS (ix3 (⟨(i 0).val, (i 0).isLt⟩ : Fin 2) (⟨(i 1).val, (i 1).isLt⟩ : Fin 50000) (⟨(i 2).val, (i 2).isLt⟩ : Fin 128)))
    (fun k => SF (ix4 (⟨(i 0).val, (i 0).isLt⟩ : Fin 2) (⟨(i 1).val, (i 1).isLt⟩ : Fin 50000) k (⟨(i 2).val, (i 2).isLt⟩ : Fin 128)))
    (fun k => MS (ix3 (⟨(i 0).val, (i 0).isLt⟩ : Fin 2) (⟨(i 1).val, (i 1).isLt⟩ : Fin 50000) k))
    (fun k => DF (ix4 (⟨(i 0).val, (i 0).isLt⟩ : Fin 2) (⟨(i 1).val, (i 1).isLt⟩ : Fin 50000) k (⟨(i 2).val, (i 2).isLt⟩ : Fin 128)))
    (fun k => MD (ix3 (⟨(i 0).val, (i 0).isLt⟩ : Fin 2) (⟨(i 1).val, (i 1).isLt⟩ : Fin 50000) k))

theorem hz3' : (![0, 0, 0] : Fin 3 → Nat) = fun _ => 0 := funext fun a => by fin_cases a <;> rfl
theorem hz4' : (![0, 0, 0, 0] : Fin 4 → Nat) = fun _ => 0 := funext fun a => by fin_cases a <;> rfl

/-- The printed index maps over the grid: every input window's block moves with the output's along the protein and row
    axes and stays at 0 on the others; the output's block indices stay in range. -/
theorem idx_facts1 : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 4) = win1_5.index t (0 : Fin 3) ∧ win1_1.index t (1 : Fin 4) = win1_5.index t (1 : Fin 3) ∧ win1_1.index t (2 : Fin 4) = 0 ∧ win1_1.index t (3 : Fin 4) = 0
    ∧ win1_2.index t (0 : Fin 4) = win1_5.index t (0 : Fin 3) ∧ win1_2.index t (1 : Fin 4) = win1_5.index t (1 : Fin 3) ∧ win1_2.index t (2 : Fin 4) = 0 ∧ win1_2.index t (3 : Fin 4) = 0
    ∧ win1_3.index t (0 : Fin 3) = win1_5.index t (0 : Fin 3) ∧ win1_3.index t (1 : Fin 3) = win1_5.index t (1 : Fin 3) ∧ win1_3.index t (2 : Fin 3) = 0
    ∧ win1_4.index t (0 : Fin 3) = win1_5.index t (0 : Fin 3) ∧ win1_4.index t (1 : Fin 3) = win1_5.index t (1 : Fin 3) ∧ win1_4.index t (2 : Fin 3) = 0
    ∧ win1_5.index t (2 : Fin 3) = 0 ∧ win1_5.index t (0 : Fin 3) ≤ 1 ∧ win1_5.index t (1 : Fin 3) ≤ 124 :=
  (by decide +kernel : ∀ t : Fin grid1.N, _)

/-- Every block (p, i) of the output is some point's. -/
theorem idx_onto1 : ∀ (q0 : Fin 2) (q1 : Fin 125), ∃ t : Fin cfg1.N, win1_5.index t = ![q0.val, q1.val, 0] :=
  (by decide +kernel : ∀ (q0 : Fin 2) (q1 : Fin 125), ∃ t : Fin grid1.N, win1_5.index t = ![q0.val, q1.val, 0])

/-- What point `t` writes back is block `t` of `G1` of the arrays as the region finds them. -/
theorem flushed1_eq (c : Dev nD) (t : Fin cfg1.N) :
    (dat1 V c).flushed 5 t = ((cfg1.win 5).blk t).view.read (Elt Ideal)
      (G1 (V c main_v5) (V c main_v26) (V c main_v33) (V c main_v16) (V c main_v19)) := by
  show (cfg1.win 5).cut (grid1.coords t) ((dat1 V c).after 5 t) = _
  rw [after1_5]
  unfold out1_5
  rw [View.canon_unit_zero hz3']
  simp only [View.ld_unit_zero (S := S1x400x128) hz3', View.ld_unit_zero (S := S1x400x10x128) hz4', View.ld_unit_zero (S := S1x400x10) hz3']
  obtain ⟨a0, a1, a2, b0, b1, b2, b3, c0, c1, c2, c3, d0, d1, d2, e0, e1, e2, o2, o0, o1⟩ := idx_facts1 t
  refine funext fun (j : S1x400x128.Idx) => ?_
  obtain ⟨a, r, q, rfl⟩ : ∃ (a : Fin 1) (r : Fin 400) (q : Fin 128), j = ix3 a r q := ⟨j 0, j 1, j 2, eq_ix3 j⟩
  obtain rfl : a = 0 := Subsingleton.elim _ _
  show k1_pay1 (F := Ideal) (k1_pay2 (iblk1 V c 0 t) (iblk1 V c 1 t) (iblk1 V c 2 t) (iblk1 V c 3 t) (iblk1 V c 4 t)) (ix3 (0 : Fin 1) r q)
    = G1 (V c main_v5) (V c main_v26) (V c main_v33) (V c main_v16) (V c main_v19) (((cfg1.win 5).blk t).view.emb (ix3 (0 : Fin 1) r q))
  refine (BodyValue.combine_apply _ _ _ _ _ r q).trans ?_
  show comb (iblk1 V c 0 t (ix3 (0 : Fin 1) r q)) (fun k => iblk1 V c 1 t (ix4 (0 : Fin 1) r k q)) (fun k => iblk1 V c 3 t (ix3 (0 : Fin 1) r k))
      (fun k => iblk1 V c 2 t (ix4 (0 : Fin 1) r k q)) (fun k => iblk1 V c 4 t (ix3 (0 : Fin 1) r k)) = _
  unfold G1
  have h0 : iblk1 V c 0 t (ix3 (0 : Fin 1) r q) = V c main_v5 (ix3 (⟨((((cfg1.win 5).blk t).view.emb (ix3 (0 : Fin 1) r q)) 0).val, ((((cfg1.win 5).blk t).view.emb (ix3 (0 : Fin 1) r q)) 0).isLt⟩ : Fin 2)
      (⟨((((cfg1.win 5).blk t).view.emb (ix3 (0 : Fin 1) r q)) 1).val, ((((cfg1.win 5).blk t).view.emb (ix3 (0 : Fin 1) r q)) 1).isLt⟩ : Fin 50000)
      (⟨((((cfg1.win 5).blk t).view.emb (ix3 (0 : Fin 1) r q)) 2).val, ((((cfg1.win 5).blk t).view.emb (ix3 (0 : Fin 1) r q)) 2).isLt⟩ : Fin 128)) := by
    show V c main_v5 (((cfg1.win 0).blk t).view.emb (ix3 (0 : Fin 1) r q)) = _
    refine congrArg _ (funext fun a => Fin.ext ?_)
    match a with
    | ⟨0, _⟩ => show win1_0.index t (0 : Fin 3) * 1 + 1 * 0 = win1_5.index t (0 : Fin 3) * 1 + 1 * 0; omega
    | ⟨1, _⟩ => show win1_0.index t (1 : Fin 3) * 400 + 1 * r.val = win1_5.index t (1 : Fin 3) * 400 + 1 * r.val; omega
    | ⟨2, _⟩ => show win1_0.index t (2 : Fin 3) * 128 + 1 * q.val = win1_5.index t (2 : Fin 3) * 128 + 1 * q.val; omega
  have h1 : ∀ k : Fin 10, iblk1 V c 1 t (ix4 (0 : Fin 1) r k q) = V c main_v26 (ix4 (⟨((((cfg1.win 5).blk t).view.emb (ix3 (0 : Fin 1) r q)) 0).val, ((((cfg1.win 5).blk t).view.emb (ix3 (0 : Fin 1) r q)) 0).isLt⟩ : Fin 2)
      (⟨((((cfg1.win 5).blk t).view.emb (ix3 (0 : Fin 1) r q)) 1).val, ((((cfg1.win 5).blk t).view.emb (ix3 (0 : Fin 1) r q)) 1).isLt⟩ : Fin 50000) k
      (⟨((((cfg1.win 5).blk t).view.emb (ix3 (0 : Fin 1) r q)) 2).val, ((((cfg1.win 5).blk t).view.emb (ix3 (0 : Fin 1) r q)) 2).isLt⟩ : Fin 128)) := fun k => by
    show V c main_v26 (((cfg1.win 1).blk t).view.emb (ix4 (0 : Fin 1) r k q)) = _
    refine congrArg _ (funext fun a => Fin.ext ?_)
    match a with
    | ⟨0, _⟩ => show win1_1.index t (0 : Fin 4) * 1 + 1 * 0 = win1_5.index t (0 : Fin 3) * 1 + 1 * 0; omega
    | ⟨1, _⟩ => show win1_1.index t (1 : Fin 4) * 400 + 1 * r.val = win1_5.index t (1 : Fin 3) * 400 + 1 * r.val; omega
    | ⟨2, _⟩ => show win1_1.index t (2 : Fin 4) * 10 + 1 * k.val = k.val; omega
    | ⟨3, _⟩ => show win1_1.index t (3 : Fin 4) * 128 + 1 * q.val = win1_5.index t (2 : Fin 3) * 128 + 1 * q.val; omega
  have h2 : ∀ k : Fin 10, iblk1 V c 2 t (ix4 (0 : Fin 1) r k q) = V c main_v33 (ix4 (⟨((((cfg1.win 5).blk t).view.emb (ix3 (0 : Fin 1) r q)) 0).val, ((((cfg1.win 5).blk t).view.emb (ix3 (0 : Fin 1) r q)) 0).isLt⟩ : Fin 2)
      (⟨((((cfg1.win 5).blk t).view.emb (ix3 (0 : Fin 1) r q)) 1).val, ((((cfg1.win 5).blk t).view.emb (ix3 (0 : Fin 1) r q)) 1).isLt⟩ : Fin 50000) k
      (⟨((((cfg1.win 5).blk t).view.emb (ix3 (0 : Fin 1) r q)) 2).val, ((((cfg1.win 5).blk t).view.emb (ix3 (0 : Fin 1) r q)) 2).isLt⟩ : Fin 128)) := fun k => by
    show V c main_v33 (((cfg1.win 2).blk t).view.emb (ix4 (0 : Fin 1) r k q)) = _
    refine congrArg _ (funext fun a => Fin.ext ?_)
    match a with
    | ⟨0, _⟩ => show win1_2.index t (0 : Fin 4) * 1 + 1 * 0 = win1_5.index t (0 : Fin 3) * 1 + 1 * 0; omega
    | ⟨1, _⟩ => show win1_2.index t (1 : Fin 4) * 400 + 1 * r.val = win1_5.index t (1 : Fin 3) * 400 + 1 * r.val; omega
    | ⟨2, _⟩ => show win1_2.index t (2 : Fin 4) * 10 + 1 * k.val = k.val; omega
    | ⟨3, _⟩ => show win1_2.index t (3 : Fin 4) * 128 + 1 * q.val = win1_5.index t (2 : Fin 3) * 128 + 1 * q.val; omega
  have h3 : ∀ k : Fin 10, iblk1 V c 3 t (ix3 (0 : Fin 1) r k) = V c main_v16 (ix3 (⟨((((cfg1.win 5).blk t).view.emb (ix3 (0 : Fin 1) r q)) 0).val, ((((cfg1.win 5).blk t).view.emb (ix3 (0 : Fin 1) r q)) 0).isLt⟩ : Fin 2)
      (⟨((((cfg1.win 5).blk t).view.emb (ix3 (0 : Fin 1) r q)) 1).val, ((((cfg1.win 5).blk t).view.emb (ix3 (0 : Fin 1) r q)) 1).isLt⟩ : Fin 50000) k) := fun k => by
    show V c main_v16 (((cfg1.win 3).blk t).view.emb (ix3 (0 : Fin 1) r k)) = _
    refine congrArg _ (funext fun a => Fin.ext ?_)
    match a with
    | ⟨0, _⟩ => show win1_3.index t (0 : Fin 3) * 1 + 1 * 0 = win1_5.index t (0 : Fin 3) * 1 + 1 * 0; omega
    | ⟨1, _⟩ => show win1_3.index t (1 : Fin 3) * 400 + 1 * r.val = win1_5.index t (1 : Fin 3) * 400 + 1 * r.val; omega
    | ⟨2, _⟩ => show win1_3.index t (2 : Fin 3) * 10 + 1 * k.val = k.val; omega
  have h4 : ∀ k : Fin 10, iblk1 V c 4 t (ix3 (0 : Fin 1) r k) = V c main_v19 (ix3 (⟨((((cfg1.win 5).blk t).view.emb (ix3 (0 : Fin 1) r q)) 0).val, ((((cfg1.win 5).blk t).view.emb (ix3 (0 : Fin 1) r q)) 0).isLt⟩ : Fin 2)
      (⟨((((cfg1.win 5).blk t).view.emb (ix3 (0 : Fin 1) r q)) 1).val, ((((cfg1.win 5).blk t).view.emb (ix3 (0 : Fin 1) r q)) 1).isLt⟩ : Fin 50000) k) := fun k => by
    show V c main_v19 (((cfg1.win 4).blk t).view.emb (ix3 (0 : Fin 1) r k)) = _
    refine congrArg _ (funext fun a => Fin.ext ?_)
    match a with
    | ⟨0, _⟩ => show win1_4.index t (0 : Fin 3) * 1 + 1 * 0 = win1_5.index t (0 : Fin 3) * 1 + 1 * 0; omega
    | ⟨1, _⟩ => show win1_4.index t (1 : Fin 3) * 400 + 1 * r.val = win1_5.index t (1 : Fin 3) * 400 + 1 * r.val; omega
    | ⟨2, _⟩ => show win1_4.index t (2 : Fin 3) * 10 + 1 * k.val = k.val; omega
  rw [h0, funext h1, funext h2, funext h3, funext h4]

/-- An index of the output array is in point `t`'s block iff each coordinate is in the block's range on its axis. -/
theorem mem_blk1 (t : Fin cfg1.N) (i : S2x50000x128.Idx) :
    i ∈ ((cfg1.win 5).blk t).view.set ↔ ∀ a : Fin 3, win1_5.index t a * S1x400x128.size a ≤ (i a).val ∧ (i a).val < win1_5.index t a * S1x400x128.size a + S1x400x128.size a := by
  show i ∈ ((View.whole main_v34).slice (win1_5.rect t)).set ↔ _
  rw [View.set_slice_whole, Rect.mem_set_unit]
  exact Iff.rfl

/-- The 250 blocks cover the output array. -/
theorem cover1 (i : S2x50000x128.Idx) : ∃ t : Fin cfg1.N, (cfg1.win 5).flush t = true ∧ i ∈ ((cfg1.win 5).blk t).view.set := by
  have hi0 : (i 0).val < 2 := (i 0).isLt
  have hi1 : (i 1).val < 50000 := (i 1).isLt
  have hi2 : (i 2).val < 128 := (i 2).isLt
  obtain ⟨t, ht⟩ := idx_onto1 ⟨(i 0).val, hi0⟩ ⟨(i 1).val / 400, by omega⟩
  have q0 : win1_5.index t (0 : Fin 3) = (i 0).val := congrFun ht 0
  have q1 : win1_5.index t (1 : Fin 3) = (i 1).val / 400 := congrFun ht 1
  have q2 : win1_5.index t (2 : Fin 3) = 0 := congrFun ht 2
  refine ⟨t, flush1_5 t, ?_⟩
  rw [mem_blk1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 400 ≤ (i 1).val ∧ (i 1).val < win1_5.index t (1 : Fin 3) * 400 + 400; omega
  | ⟨2, _⟩ => show win1_5.index t (2 : Fin 3) * 128 ≤ (i 2).val ∧ (i 2).val < win1_5.index t (2 : Fin 3) * 128 + 128; omega

/-- After the region its output array is `G1` of the arrays it was entered with. -/
theorem final1 (c : Dev nD) : (dat1 V c).arrAt 5 cfg1.N = G1 (V c main_v5) (V c main_v26) (V c main_v33) (V c main_v16) (V c main_v19) :=
  (dat1 V c).arrAt_eq_of_cover 5 (G1 (V c main_v5) (V c main_v26) (V c main_v33) (V c main_v16) (V c main_v19)) (fun t _ => flushed1_eq V c t) cover1

end Cert.KernelIdeal.KValue

end
-- ==== Proof.Spec.lean ====
/-
  The layer both programs compute, as one function of the argument arrays over the extended reals.

  For one protein with node features Z : [50000, 128], neighbour tables I : [50000, 10] of integer indices and weight
  matrices W : [128, 128]: every node is projected (row n of Z times W); a neighbour slot k of node n names the row
  `row (I (n, k))` of the projected table — a negative index counts from the end, and the result is read signed and
  clamped into the table — and counts only when its index exceeds -1 (`msk` is 1 there and 0 otherwise). The aggregate
  over the ten slots is the masked sum divided by the number of counted slots, at least one. The layer's output is
  the node's own projection plus the two aggregates (same-type and different-type neighbours), cut below at zero.
-/
import Idealize.ShloMosaic.Lib.ValueIdx
import Idealize.ShloMosaic.PureOps.Ideal.Laws

noncomputable section

namespace Cert.Agg

open Idealize.ShloMosaic Idealize.ShloMosaic.ValueIdx

abbrev SZ : Shape := ⟨2, ![50000, 128]⟩
abbrev SI : Shape := ⟨2, ![50000, 10]⟩
abbrev SW : Shape := ⟨2, ![128, 128]⟩

/-- A negative index counts from the end of the 50000 rows. -/
def nrm (v : BitVec 32) : BitVec 32 := Scalar.select (IntOp.cmpi .slt v 0#32) (IntOp.addi v 50000#32) v

/-- The row of the table a slot's index names: normalised, read signed, clamped into the table. -/
def row (v : BitVec 32) : Fin 50000 := ⟨min (nrm v).toInt.toNat (50000 - 1), by omega⟩

/-- Whether a slot counts: its index exceeds -1. -/
def bit (v : BitVec 32) : BitVec 1 := IntOp.cmpi .sgt v 4294967295#32

/-- The slot's weight: 1 when it counts, 0 otherwise. -/
def msk (v : BitVec 32) : EReal := (((bit v).toNat : ℝ) : EReal)

/-- Entry (n, c) of Z · W. -/
def proj (Z : SZ.Idx → EReal) (W : SW.Idx → EReal) (n : Fin 50000) (c : Fin 128) : EReal :=
  ∑ f : Fin 128, Z (ix2 n f) * W (ix2 f c)

/-- The mean over the counted neighbour slots of node n of the projected rows they name, channel c. -/
def agg (Z : SZ.Idx → EReal) (W : SW.Idx → EReal) (I : SI.Idx → BitVec 32) (n : Fin 50000) (c : Fin 128) : EReal :=
  Ideal.div (∑ k : Fin 10, proj Z W (row (I (ix2 n k))) c * msk (I (ix2 n k)))
    (max (∑ k : Fin 10, msk (I (ix2 n k))) (Ideal.ofBits .f32 0x3F800000#32))

/-- The layer's output for one protein. -/
def out (Z : SZ.Idx → EReal) (IS ID : SI.Idx → BitVec 32) (Wsv Wsr Wdr : SW.Idx → EReal) : SZ.Idx → EReal :=
  fun j => max ((proj Z Wsv (j 0) (j 1) + agg Z Wsr IS (j 0) (j 1)) + agg Z Wdr ID (j 0) (j 1))
    (Ideal.ofBits .f32 0x00000000#32)

end Cert.Agg

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.HostReadLayout.lean ====
/-
  Layout operations of the host lines read at an index given by coordinates: a stack of two arrays along a new leading
  axis, three square blocks laid side by side along the columns, an array given a leading axis of extent one, a slice of
  the trailing axis of a rank-3 array, a slice of the leading axis, and a trailing unit axis added. Each lemma is over
  VARIABLES of the shapes the program uses, so that it applies to a printed operation by unification; each is the
  library's read-at-an-index lemma for that operation with the coordinate arithmetic discharged.
  Also: reading the result of an operation with a family of operands inside a line in single-assignment form.
-/
import Idealize.ShloMosaic.Lib.ValueLayout
import proofs.«104521_j27058293965313_1_alg».proof.Proof.LibStageRead

namespace Cert.KernelIdeal.HostRead

open Idealize.ShloMosaic Idealize.ShloMosaic.ValueIdx Idealize.ShloMosaic.StableHlo

variable {α : Type}

/-! ## A family of operands -/

section Line
variable {τ : Topo} {sig : RefSig} {Val : EltTy → Type}
variable {ops : List (HloOp τ sig Val)} {dsts : List (Ref sig .tc)}

/-- The buffer an operation over a family of operands writes holds, after the whole line, the operation's function
    of the contents its operands hold after the whole line. -/
theorem read_nary (h : WritesAre ops dsts) (i : ℕ) (V : Valuation τ sig Val) {n : ℕ} {xs : Fin n → Ref sig .tc}
    {y : Ref sig .tc} {f : ((k : Fin n) → (xs k).ty.Contents Val) → y.ty.Contents Val} {hxs hy}
    (hop : ops[i]? = some (nary (τ := τ) xs y f hxs hy)) (hy' : y ∉ dsts.drop (i + 1))
    (hxs' : ∀ k, xs k ∉ dsts.drop i) :
    after ops V (Proc.devRef .tc y) = f (fun k => after ops V (Proc.devRef .tc (xs k))) := by
  rw [after_read_at h i hop hy' V, nary_result]
  congr 1
  funext k
  exact (after_keep_from h i (hxs' k) V).symm

/-- A buffer the line never writes holds, after the line, what it held before. -/
theorem read_keep (h : WritesAre ops dsts) (V : Valuation τ sig Val) {r : Ref sig .tc} (hr : r ∉ dsts) :
    after ops V (Proc.devRef .tc r) = V (Proc.devRef .tc r) :=
  after_keep_from h 0 hr V

end Line

/-! ## Two arrays stacked along a new leading axis -/

/-- The stack of two `[1, a, b]` arrays reads, at `(p, n, f)`, the first at `(0, n, f)` when `p = 0` and the second
    there otherwise. -/
theorem stack2_apply {a b : ℕ} (x y : (⟨3, ![1, a, b]⟩ : Shape).Idx → α)
    (h : Shape.Concatenates [(⟨3, ![1, a, b]⟩ : Shape), ⟨3, ![1, a, b]⟩] ⟨3, ![2, a, b]⟩ 0)
    (p : Fin 2) (n : Fin a) (f : Fin b) :
    concatenate ⟨3, ![2, a, b]⟩ 0 [⟨⟨3, ![1, a, b]⟩, x⟩, ⟨⟨3, ![1, a, b]⟩, y⟩] h (ix3 p n f)
      = if p.val = 0 then x (ix3 (0 : Fin 1) n f) else y (ix3 (0 : Fin 1) n f) := by
  by_cases hp : p.val = 0
  · rw [if_pos hp]
    exact concatenate_pair_apply_left (0 : Fin 3) x y h (ix3 p n f) rfl (ix3 (0 : Fin 1) n f) (fun ax => by
      match ax with
      | ⟨0, _⟩ => exact hp.symm
      | ⟨1, _⟩ => rfl
      | ⟨2, _⟩ => rfl)
  · rw [if_neg hp]
    have hp1 : p.val = 1 := by omega
    exact concatenate_pair_apply_right (0 : Fin 3) x y h (ix3 p n f) rfl rfl (ix3 (0 : Fin 1) n f) (fun ax hax => by
      match ax, hax with
      | ⟨0, _⟩, hax => exact absurd rfl hax
      | ⟨1, _⟩, _ => rfl
      | ⟨2, _⟩, _ => rfl) (by show 0 + 1 = p.val; omega)

/-! ## An array given a leading axis of extent one -/

/-- An `[a, b]` array broadcast to `[1, a, b]` along its own two axes reads, at `(u, n, f)`, the operand at `(n, f)`. -/
theorem bcastLead_apply {a b : ℕ} (x : (⟨2, ![a, b]⟩ : Shape).Idx → α)
    (h : (⟨2, ![a, b]⟩ : Shape).BroadcastsInDim ⟨3, ![1, a, b]⟩ (![1, 2] : Fin 2 → Fin 3))
    (u : Fin 1) (n : Fin a) (f : Fin b) :
    broadcastInDim ⟨3, ![1, a, b]⟩ (![1, 2] : Fin 2 → Fin 3) h x (ix3 u n f) = x (ix2 n f) :=
  broadcastInDim_apply _ h x _ _ (fun ax => by
    match ax with
    | ⟨0, _⟩ =>
      show n.val = if a = 1 then 0 else n.val
      split
      · omega
      · rfl
    | ⟨1, _⟩ =>
      show f.val = if b = 1 then 0 else f.val
      split
      · omega
      · rfl)

/-! ## A trailing unit axis added -/

/-- An `[a, b, c]` array broadcast to `[a, b, c, 1]` along its own three axes reads, at `(p, n, k, u)`, the operand at
    `(p, n, k)`. -/
theorem bcastTrail_apply {a b c : ℕ} (x : (⟨3, ![a, b, c]⟩ : Shape).Idx → α)
    (h : (⟨3, ![a, b, c]⟩ : Shape).BroadcastsInDim ⟨4, ![a, b, c, 1]⟩ (![0, 1, 2] : Fin 3 → Fin 4))
    (p : Fin a) (n : Fin b) (k : Fin c) (u : Fin 1) :
    broadcastInDim ⟨4, ![a, b, c, 1]⟩ (![0, 1, 2] : Fin 3 → Fin 4) h x (ix4 p n k u) = x (ix3 p n k) :=
  broadcastInDim_apply _ h x _ _ (fun ax => by
    match ax with
    | ⟨0, _⟩ =>
      show p.val = if a = 1 then 0 else p.val
      split
      · omega
      · rfl
    | ⟨1, _⟩ =>
      show n.val = if b = 1 then 0 else n.val
      split
      · omega
      · rfl
    | ⟨2, _⟩ =>
      show k.val = if c = 1 then 0 else k.val
      split
      · omega
      · rfl)

/-! ## A scalar spread over an array -/

/-- A rank-0 array broadcast to any shape reads, everywhere, its one entry. -/
theorem bcastScalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x _ _ (fun ax => ax.elim0)

/-! ## Slices -/

/-- A rank-3 array cut along its last axis from `o` reads, at `(p, n, c)`, the source at `(p, n, o + c)`. -/
theorem slice3_axis2_eq {n0 n1 n2 m : ℕ} (o : ℕ) (X : (⟨3, ![n0, n1, n2]⟩ : Shape).Idx → α)
    (h : (⟨3, ![n0, n1, n2]⟩ : Shape).Slices ![0, 0, o] ⟨3, ![n0, n1, m]⟩) (p : Fin n0) (n : Fin n1) (c : Fin m)
    (k : Fin n2) (hk : k.val = o + c.val) :
    extractStridedSlice ⟨3, ![n0, n1, m]⟩ ![0, 0, o] X h (ix3 p n c) = X (ix3 p n k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A rank-3 array cut along its first axis from `o` reads, at `(u, n, c)`, the source at `(o + u, n, c)`. -/
theorem slice3_axis0_eq {n0 n1 n2 m : ℕ} (o : ℕ) (X : (⟨3, ![n0, n1, n2]⟩ : Shape).Idx → α)
    (h : (⟨3, ![n0, n1, n2]⟩ : Shape).Slices ![o, 0, 0] ⟨3, ![m, n1, n2]⟩) (u : Fin m) (n : Fin n1) (c : Fin n2)
    (k : Fin n0) (hk : k.val = o + u.val) :
    extractStridedSlice ⟨3, ![m, n1, n2]⟩ ![o, 0, 0] X h (ix3 u n c) = X (ix3 k n c) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## Three square blocks side by side -/

/-- Three `[r, c]` arrays laid side by side along the columns read, at `(f, q)` with `q = pre + c'` and `pre` the
    columns before block `k`, block `k` at `(f, c')`. -/
theorem cols3_apply {r c : ℕ} (x0 x1 x2 : (⟨2, ![r, c]⟩ : Shape).Idx → α)
    (h : Shape.Concatenates [(⟨2, ![r, c]⟩ : Shape), ⟨2, ![r, c]⟩, ⟨2, ![r, c]⟩] ⟨2, ![r, c + c + c]⟩ 1)
    (f : Fin r) (c' : Fin c) :
    concatenate ⟨2, ![r, c + c + c]⟩ 1 [⟨⟨2, ![r, c]⟩, x0⟩, ⟨⟨2, ![r, c]⟩, x1⟩, ⟨⟨2, ![r, c]⟩, x2⟩] h
        (ix2 f ⟨c'.val, by have := c'.isLt; omega⟩) = x0 (ix2 f c')
    ∧ concatenate ⟨2, ![r, c + c + c]⟩ 1 [⟨⟨2, ![r, c]⟩, x0⟩, ⟨⟨2, ![r, c]⟩, x1⟩, ⟨⟨2, ![r, c]⟩, x2⟩] h
        (ix2 f ⟨c + c'.val, by have := c'.isLt; omega⟩) = x1 (ix2 f c')
    ∧ concatenate ⟨2, ![r, c + c + c]⟩ 1 [⟨⟨2, ![r, c]⟩, x0⟩, ⟨⟨2, ![r, c]⟩, x1⟩, ⟨⟨2, ![r, c]⟩, x2⟩] h
        (ix2 f ⟨c + c + c'.val, by have := c'.isLt; omega⟩) = x2 (ix2 f c') := by
  have hoff : ∀ ax : Fin 2, ax.cast (rfl : (⟨2, ![r, c]⟩ : Shape).rank = (⟨2, ![r, c + c + c]⟩ : Shape).rank) ≠ (1 : Fin 2) →
      ∀ q : Fin (c + c + c), ((ix2 f c' : (⟨2, ![r, c]⟩ : Shape).Idx) ax).val
        = ((ix2 f q : (⟨2, ![r, c + c + c]⟩ : Shape).Idx) (ax.cast rfl)).val := fun ax hax q => by
    match ax, hax with
    | ⟨0, _⟩, _ => rfl
    | ⟨1, _⟩, hax => exact absurd rfl hax
  refine ⟨?_, ?_, ?_⟩
  · exact concatenate_apply_piece (t := ⟨2, ![r, c + c + c]⟩) (1 : Fin 2)
      [⟨⟨2, ![r, c]⟩, x0⟩, ⟨⟨2, ![r, c]⟩, x1⟩, ⟨⟨2, ![r, c]⟩, x2⟩] h _ 0 (Nat.zero_lt_succ _)
      ⟨2, ![r, c]⟩ x0 rfl rfl 0 rfl (ix2 f c') (fun ax hax => hoff ax hax _) (Nat.zero_add _)
  · exact concatenate_apply_piece (t := ⟨2, ![r, c + c + c]⟩) (1 : Fin 2)
      [⟨⟨2, ![r, c]⟩, x0⟩, ⟨⟨2, ![r, c]⟩, x1⟩, ⟨⟨2, ![r, c]⟩, x2⟩] h _ 1 (Nat.succ_lt_succ (Nat.zero_lt_succ _))
      ⟨2, ![r, c]⟩ x1 rfl rfl c rfl (ix2 f c') (fun ax hax => hoff ax hax _) rfl
  · exact concatenate_apply_piece (t := ⟨2, ![r, c + c + c]⟩) (1 : Fin 2)
      [⟨⟨2, ![r, c]⟩, x0⟩, ⟨⟨2, ![r, c]⟩, x1⟩, ⟨⟨2, ![r, c]⟩, x2⟩] h _ 2 (Nat.lt_succ_self _)
      ⟨2, ![r, c]⟩ x2 rfl rfl (c + c) rfl (ix2 f c') (fun ax hax => hoff ax hax _) rfl

end Cert.KernelIdeal.HostRead
-- ==== Proof.HostRead0.lean ====
/-
  The host lines before the first kernel call, read at an index: the two node-feature arrays stacked along a new leading
  axis, and the three weight matrices laid side by side along the columns.
-/
import proofs.«104521_j27058293965313_1_alg».proof.Proof.Gen.KernelIdeal.Launch
import proofs.«104521_j27058293965313_1_alg».proof.Proof.Spec
import proofs.«104521_j27058293965313_1_alg».proof.Proof.HostReadLayout

noncomputable section

namespace Cert.KernelIdeal.HostRead

open Cert.KernelIdeal Cert.KernelIdeal.Gen Idealize.ShloMosaic Idealize.ShloMosaic.ValueIdx Idealize.ShloMosaic.StableHlo

/-- The line writes, operation by operation, these buffers. -/
theorem writes0 : WritesAre (hostOps0 (F := Ideal)) [main_v0, main_v1, main_v2, main_v3] := by
  refine .cons ?_ (.cons ?_ (.cons ?_ (.cons ?_ .nil)))
  all_goals exact Finset.Subset.refl _

variable (W : Valuation τ sig (Elt Ideal))

/-- The stacked node features: protein `p`'s array at `(n, f)`. -/
theorem read_v3 (p : Fin 2) (n : Fin 50000) (f : Fin 128) :
    (StableHlo.after hostOps0 W (Proc.devRef .tc main_v3) : S2x50000x128.Idx → EReal) (ix3 p n f)
      = if p.val = 0 then (W (Proc.devRef .tc main_arg0) : S50000x128.Idx → EReal) (ix2 n f)
        else (W (Proc.devRef .tc main_arg3) : S50000x128.Idx → EReal) (ix2 n f) := by
  have e3 := read_binary writes0 3 W (hop := rfl) (by decide) (by decide) (by decide)
  have e1 := read_unary writes0 1 W (hop := rfl) (by decide) (by decide)
  have e2 := read_unary writes0 2 W (hop := rfl) (by decide) (by decide)
  have k0 := read_keep writes0 W (r := main_arg0) (by decide)
  have k3 := read_keep writes0 W (r := main_arg3) (by decide)
  rw [k0] at e1
  rw [k3] at e2
  rw [e3, e1, e2]
  refine (stack2_apply _ _ _ p n f).trans ?_
  rw [bcastLead_apply, bcastLead_apply]

/-- The three weight matrices side by side: columns `0 … 127` are the first. -/
theorem read_v0_a (f c : Fin 128) :
    (StableHlo.after hostOps0 W (Proc.devRef .tc main_v0) : S128x384.Idx → EReal) (ix2 f ⟨c.val, by omega⟩)
      = (W (Proc.devRef .tc main_arg6) : S128x128.Idx → EReal) (ix2 f c) := by
  have e0 := read_nary writes0 0 W (hop := rfl) (by decide) (by decide)
  have k6 := read_keep writes0 W (r := main_arg6) (by decide)
  rw [e0]
  refine (cols3_apply (r := 128) (c := 128) _ _ _ _ f c).1.trans ?_
  exact congrFun k6 _

/-- Columns `128 … 255` are the second. -/
theorem read_v0_b (f c : Fin 128) :
    (StableHlo.after hostOps0 W (Proc.devRef .tc main_v0) : S128x384.Idx → EReal) (ix2 f ⟨128 + c.val, by omega⟩)
      = (W (Proc.devRef .tc main_arg7) : S128x128.Idx → EReal) (ix2 f c) := by
  have e0 := read_nary writes0 0 W (hop := rfl) (by decide) (by decide)
  have k7 := read_keep writes0 W (r := main_arg7) (by decide)
  rw [e0]
  refine (cols3_apply (r := 128) (c := 128) _ _ _ _ f c).2.1.trans ?_
  exact congrFun k7 _

/-- Columns `256 … 383` are the third. -/
theorem read_v0_c (f c : Fin 128) :
    (StableHlo.after hostOps0 W (Proc.devRef .tc main_v0) : S128x384.Idx → EReal) (ix2 f ⟨256 + c.val, by omega⟩)
      = (W (Proc.devRef .tc main_arg8) : S128x128.Idx → EReal) (ix2 f c) := by
  have e0 := read_nary writes0 0 W (hop := rfl) (by decide) (by decide)
  have k8 := read_keep writes0 W (r := main_arg8) (by decide)
  rw [e0]
  refine (cols3_apply (r := 128) (c := 128) _ _ _ _ f c).2.2.trans ?_
  exact congrFun k8 _

end Cert.KernelIdeal.HostRead

end
-- ==== Proof.HostRead1.lean ====
/-
  The host lines between the two kernel calls, read at an index: the three column blocks of the projected table, the
  neighbour tables stacked, their masks, their indices normalised, and the two batched row gathers.
-/
import proofs.«104521_j27058293965313_1_alg».proof.Proof.Gen.KernelIdeal.Launch
import proofs.«104521_j27058293965313_1_alg».proof.Proof.Spec
import proofs.«104521_j27058293965313_1_alg».proof.Proof.HostReadLayout

noncomputable section

namespace Cert.KernelIdeal.HostRead

open Cert.KernelIdeal Cert.KernelIdeal.Gen Idealize.ShloMosaic Idealize.ShloMosaic.ValueIdx Idealize.ShloMosaic.StableHlo

/-- The line writes, operation by operation, these buffers. -/
abbrev dsts1 : List (Ref sig .tc) :=
  [main_v5, main_v6, main_v7, main_v8, main_v9, main_v10, main_v11, main_v12, main_v13, main_c, main_v14, main_v15,
    main_v16, main_c_0, main_v17, main_v18, main_v19, main_c_1, main_v20, main_v21, main_c_2, main_v22, main_v23,
    main_v24, main_v25, main_v26, main_c_3, main_v27, main_v28, main_c_4, main_v29, main_v30, main_v31, main_v32,
    main_v33]

theorem writes1 : WritesAre (hostOps1 (F := Ideal)) dsts1 := by
  repeat' first
    | exact List.Forall₂.nil
    | refine List.Forall₂.cons (Finset.Subset.refl _) ?_

variable (W : Valuation τ sig (Elt Ideal))

/-- The same-type neighbour table of protein `p`. -/
def idxS (p : Fin 2) (n : Fin 50000) (k : Fin 10) : BitVec 32 :=
  if p.val = 0 then (W (Proc.devRef .tc main_arg1) : S50000x10.Idx → BitVec 32) (ix2 n k)
  else (W (Proc.devRef .tc main_arg4) : S50000x10.Idx → BitVec 32) (ix2 n k)

/-- The different-type neighbour table of protein `p`. -/
def idxD (p : Fin 2) (n : Fin 50000) (k : Fin 10) : BitVec 32 :=
  if p.val = 0 then (W (Proc.devRef .tc main_arg2) : S50000x10.Idx → BitVec 32) (ix2 n k)
  else (W (Proc.devRef .tc main_arg5) : S50000x10.Idx → BitVec 32) (ix2 n k)

/-! ## The column blocks of the projected table -/

theorem read_v5 (p : Fin 2) (n : Fin 50000) (c : Fin 128) :
    (StableHlo.after hostOps1 W (Proc.devRef .tc main_v5) : S2x50000x128.Idx → EReal) (ix3 p n c)
      = (W (Proc.devRef .tc main_v4) : S2x50000x384.Idx → EReal) (ix3 p n ⟨c.val, by omega⟩) := by
  have e := read_unary writes1 0 W (hop := rfl) (by decide) (by decide)
  have k4 := read_keep writes1 W (r := main_v4) (by decide)
  rw [k4] at e
  rw [e]
  exact slice3_axis2_eq 0 _ _ p n c _ (Nat.zero_add _).symm

theorem read_v6 (p : Fin 2) (n : Fin 50000) (c : Fin 128) :
    (StableHlo.after hostOps1 W (Proc.devRef .tc main_v6) : S2x50000x128.Idx → EReal) (ix3 p n c)
      = (W (Proc.devRef .tc main_v4) : S2x50000x384.Idx → EReal) (ix3 p n ⟨128 + c.val, by omega⟩) := by
  have e := read_unary writes1 1 W (hop := rfl) (by decide) (by decide)
  have k4 := read_keep writes1 W (r := main_v4) (by decide)
  rw [k4] at e
  rw [e]
  exact slice3_axis2_eq 128 _ _ p n c _ rfl

theorem read_v7 (p : Fin 2) (n : Fin 50000) (c : Fin 128) :
    (StableHlo.after hostOps1 W (Proc.devRef .tc main_v7) : S2x50000x128.Idx → EReal) (ix3 p n c)
      = (W (Proc.devRef .tc main_v4) : S2x50000x384.Idx → EReal) (ix3 p n ⟨256 + c.val, by omega⟩) := by
  have e := read_unary writes1 2 W (hop := rfl) (by decide) (by decide)
  have k4 := read_keep writes1 W (r := main_v4) (by decide)
  rw [k4] at e
  rw [e]
  exact slice3_axis2_eq 256 _ _ p n c _ rfl

/-! ## The neighbour tables stacked -/

theorem read_v10 (p : Fin 2) (n : Fin 50000) (k : Fin 10) :
    (StableHlo.after hostOps1 W (Proc.devRef .tc main_v10) : S2x50000x10.Idx → BitVec 32) (ix3 p n k) = idxS W p n k := by
  have e10 := read_binary writes1 5 W (hop := rfl) (by decide) (by decide) (by decide)
  have e8 := read_unary writes1 3 W (hop := rfl) (by decide) (by decide)
  have e9 := read_unary writes1 4 W (hop := rfl) (by decide) (by decide)
  have k1 := read_keep writes1 W (r := main_arg1) (by decide)
  have k4 := read_keep writes1 W (r := main_arg4) (by decide)
  rw [k1] at e8
  rw [k4] at e9
  rw [e10, e8, e9]
  refine (stack2_apply _ _ _ p n k).trans ?_
  rw [bcastLead_apply, bcastLead_apply]
  rfl

theorem read_v13 (p : Fin 2) (n : Fin 50000) (k : Fin 10) :
    (StableHlo.after hostOps1 W (Proc.devRef .tc main_v13) : S2x50000x10.Idx → BitVec 32) (ix3 p n k) = idxD W p n k := by
  have e13 := read_binary writes1 8 W (hop := rfl) (by decide) (by decide) (by decide)
  have e11 := read_unary writes1 6 W (hop := rfl) (by decide) (by decide)
  have e12 := read_unary writes1 7 W (hop := rfl) (by decide) (by decide)
  have k2 := read_keep writes1 W (r := main_arg2) (by decide)
  have k5 := read_keep writes1 W (r := main_arg5) (by decide)
  rw [k2] at e11
  rw [k5] at e12
  rw [e13, e11, e12]
  refine (stack2_apply _ _ _ p n k).trans ?_
  rw [bcastLead_apply, bcastLead_apply]
  rfl

/-! ## The constants spread over the tables -/

theorem read_v14 (j : S2x50000x10.Idx) :
    (StableHlo.after hostOps1 W (Proc.devRef .tc main_v14) : S2x50000x10.Idx → BitVec 32) j = 4294967295#32 := by
  have e := read_unary writes1 10 W (hop := rfl) (by decide) (by decide)
  have ec := read_nullary writes1 9 W (hop := rfl) (by decide)
  rw [ec] at e
  rw [e]
  exact bcastScalar_apply _ _ j

theorem read_v17 (j : S2x50000x10.Idx) :
    (StableHlo.after hostOps1 W (Proc.devRef .tc main_v17) : S2x50000x10.Idx → BitVec 32) j = 4294967295#32 := by
  have e := read_unary writes1 14 W (hop := rfl) (by decide) (by decide)
  have ec := read_nullary writes1 13 W (hop := rfl) (by decide)
  rw [ec] at e
  rw [e]
  exact bcastScalar_apply _ _ j

theorem read_v20 (j : S2x50000x10.Idx) :
    (StableHlo.after hostOps1 W (Proc.devRef .tc main_v20) : S2x50000x10.Idx → BitVec 32) j = 0#32 := by
  have e := read_unary writes1 18 W (hop := rfl) (by decide) (by decide)
  have ec := read_nullary writes1 17 W (hop := rfl) (by decide)
  rw [ec] at e
  rw [e]
  exact bcastScalar_apply _ _ j

theorem read_v22 (j : S2x50000x10.Idx) :
    (StableHlo.after hostOps1 W (Proc.devRef .tc main_v22) : S2x50000x10.Idx → BitVec 32) j = 50000#32 := by
  have e := read_unary writes1 21 W (hop := rfl) (by decide) (by decide)
  have ec := read_nullary writes1 20 W (hop := rfl) (by decide)
  rw [ec] at e
  rw [e]
  exact bcastScalar_apply _ _ j

theorem read_v27 (j : S2x50000x10.Idx) :
    (StableHlo.after hostOps1 W (Proc.devRef .tc main_v27) : S2x50000x10.Idx → BitVec 32) j = 0#32 := by
  have e := read_unary writes1 27 W (hop := rfl) (by decide) (by decide)
  have ec := read_nullary writes1 26 W (hop := rfl) (by decide)
  rw [ec] at e
  rw [e]
  exact bcastScalar_apply _ _ j

theorem read_v29 (j : S2x50000x10.Idx) :
    (StableHlo.after hostOps1 W (Proc.devRef .tc main_v29) : S2x50000x10.Idx → BitVec 32) j = 50000#32 := by
  have e := read_unary writes1 30 W (hop := rfl) (by decide) (by decide)
  have ec := read_nullary writes1 29 W (hop := rfl) (by decide)
  rw [ec] at e
  rw [e]
  exact bcastScalar_apply _ _ j

/-! ## The masks -/

theorem read_v16 (p : Fin 2) (n : Fin 50000) (k : Fin 10) :
    (StableHlo.after hostOps1 W (Proc.devRef .tc main_v16) : S2x50000x10.Idx → EReal) (ix3 p n k)
      = Cert.Agg.msk (idxS W p n k) := by
  have e16 := read_unary writes1 12 W (hop := rfl) (by decide) (by decide)
  have e15 := read_binary writes1 11 W (hop := rfl) (by decide) (by decide) (by decide)
  rw [e16, e15]
  show FloatOps.uitofp (F := Ideal) .f32 (IntOp.cmpi .sgt
      ((StableHlo.after hostOps1 W (Proc.devRef .tc main_v10) : S2x50000x10.Idx → BitVec 32) (ix3 p n k))
      ((StableHlo.after hostOps1 W (Proc.devRef .tc main_v14) : S2x50000x10.Idx → BitVec 32) (ix3 p n k))) = _
  rw [read_v10, read_v14]
  rfl

theorem read_v19 (p : Fin 2) (n : Fin 50000) (k : Fin 10) :
    (StableHlo.after hostOps1 W (Proc.devRef .tc main_v19) : S2x50000x10.Idx → EReal) (ix3 p n k)
      = Cert.Agg.msk (idxD W p n k) := by
  have e19 := read_unary writes1 16 W (hop := rfl) (by decide) (by decide)
  have e18 := read_binary writes1 15 W (hop := rfl) (by decide) (by decide) (by decide)
  rw [e19, e18]
  show FloatOps.uitofp (F := Ideal) .f32 (IntOp.cmpi .sgt
      ((StableHlo.after hostOps1 W (Proc.devRef .tc main_v13) : S2x50000x10.Idx → BitVec 32) (ix3 p n k))
      ((StableHlo.after hostOps1 W (Proc.devRef .tc main_v17) : S2x50000x10.Idx → BitVec 32) (ix3 p n k))) = _
  rw [read_v13, read_v17]
  rfl

/-! ## The indices normalised -/

theorem read_v24 (p : Fin 2) (n : Fin 50000) (k : Fin 10) :
    (StableHlo.after hostOps1 W (Proc.devRef .tc main_v24) : S2x50000x10.Idx → BitVec 32) (ix3 p n k)
      = Cert.Agg.nrm (idxS W p n k) := by
  have e24 := read_ternary writes1 23 W (hop := rfl) (by decide) (by decide) (by decide) (by decide)
  have e21 := read_binary writes1 19 W (hop := rfl) (by decide) (by decide) (by decide)
  have e23 := read_binary writes1 22 W (hop := rfl) (by decide) (by decide) (by decide)
  rw [e24, e21, e23]
  show Scalar.select (IntOp.cmpi .slt
        ((StableHlo.after hostOps1 W (Proc.devRef .tc main_v10) : S2x50000x10.Idx → BitVec 32) (ix3 p n k))
        ((StableHlo.after hostOps1 W (Proc.devRef .tc main_v20) : S2x50000x10.Idx → BitVec 32) (ix3 p n k)))
      (IntOp.addi
        ((StableHlo.after hostOps1 W (Proc.devRef .tc main_v10) : S2x50000x10.Idx → BitVec 32) (ix3 p n k))
        ((StableHlo.after hostOps1 W (Proc.devRef .tc main_v22) : S2x50000x10.Idx → BitVec 32) (ix3 p n k)))
      ((StableHlo.after hostOps1 W (Proc.devRef .tc main_v10) : S2x50000x10.Idx → BitVec 32) (ix3 p n k)) = _
  rw [read_v10, read_v20, read_v22]
  rfl

theorem read_v31 (p : Fin 2) (n : Fin 50000) (k : Fin 10) :
    (StableHlo.after hostOps1 W (Proc.devRef .tc main_v31) : S2x50000x10.Idx → BitVec 32) (ix3 p n k)
      = Cert.Agg.nrm (idxD W p n k) := by
  have e31 := read_ternary writes1 32 W (hop := rfl) (by decide) (by decide) (by decide) (by decide)
  have e28 := read_binary writes1 28 W (hop := rfl) (by decide) (by decide) (by decide)
  have e30 := read_binary writes1 31 W (hop := rfl) (by decide) (by decide) (by decide)
  rw [e31, e28, e30]
  show Scalar.select (IntOp.cmpi .slt
        ((StableHlo.after hostOps1 W (Proc.devRef .tc main_v13) : S2x50000x10.Idx → BitVec 32) (ix3 p n k))
        ((StableHlo.after hostOps1 W (Proc.devRef .tc main_v27) : S2x50000x10.Idx → BitVec 32) (ix3 p n k)))
      (IntOp.addi
        ((StableHlo.after hostOps1 W (Proc.devRef .tc main_v13) : S2x50000x10.Idx → BitVec 32) (ix3 p n k))
        ((StableHlo.after hostOps1 W (Proc.devRef .tc main_v29) : S2x50000x10.Idx → BitVec 32) (ix3 p n k)))
      ((StableHlo.after hostOps1 W (Proc.devRef .tc main_v13) : S2x50000x10.Idx → BitVec 32) (ix3 p n k)) = _
  rw [read_v13, read_v27, read_v29]
  rfl

theorem read_v25 (p : Fin 2) (n : Fin 50000) (k : Fin 10) (u : Fin 1) :
    (StableHlo.after hostOps1 W (Proc.devRef .tc main_v25) : S2x50000x10x1.Idx → BitVec 32) (ix4 p n k u)
      = Cert.Agg.nrm (idxS W p n k) := by
  have e := read_unary writes1 24 W (hop := rfl) (by decide) (by decide)
  rw [e]
  refine (bcastTrail_apply _ _ p n k u).trans ?_
  exact read_v24 W p n k

theorem read_v32 (p : Fin 2) (n : Fin 50000) (k : Fin 10) (u : Fin 1) :
    (StableHlo.after hostOps1 W (Proc.devRef .tc main_v32) : S2x50000x10x1.Idx → BitVec 32) (ix4 p n k u)
      = Cert.Agg.nrm (idxD W p n k) := by
  have e := read_unary writes1 33 W (hop := rfl) (by decide) (by decide)
  rw [e]
  refine (bcastTrail_apply _ _ p n k u).trans ?_
  exact read_v31 W p n k

/-! ## The gathered rows -/

/-- The batched row gather read at an index (proved of the printed dimension numbers elsewhere). -/
abbrev GatherReads : Prop :=
  ∀ (x : S2x50000x128.Idx → EReal) (idx : S2x50000x10x1.Idx → BitVec 32) (p : Fin 2) (n : Fin 50000) (k : Fin 10) (c : Fin 128),
    Host.gather gather_S2x50000x128_S2x50000x10x1_S2x50000x10x128_3_1_0_0_1_3_11128 x idx (ix4 p n k c)
      = x (ix3 p ⟨min (idx (ix4 p n k (0 : Fin 1))).toInt.toNat (50000 - 1), by omega⟩ c)

theorem read_v26 (hg : GatherReads) (p : Fin 2) (n : Fin 50000) (k : Fin 10) (c : Fin 128) :
    (StableHlo.after hostOps1 W (Proc.devRef .tc main_v26) : S2x50000x10x128.Idx → EReal) (ix4 p n k c)
      = (W (Proc.devRef .tc main_v4) : S2x50000x384.Idx → EReal)
          (ix3 p (Cert.Agg.row (idxS W p n k)) ⟨128 + c.val, by omega⟩) := by
  have e := read_binary writes1 25 W (hop := rfl) (by decide) (by decide) (by decide)
  rw [e]
  refine (hg _ _ p n k c).trans ?_
  refine Eq.trans (congrArg (fun r : Fin 50000 =>
    (StableHlo.after hostOps1 W (Proc.devRef .tc main_v6) : S2x50000x128.Idx → EReal) (ix3 p r c)) (Fin.ext ?_))
    (read_v6 W p (Cert.Agg.row (idxS W p n k)) c)
  exact congrArg (fun v : BitVec 32 => min v.toInt.toNat (50000 - 1)) (read_v25 W p n k 0)

theorem read_v33 (hg : GatherReads) (p : Fin 2) (n : Fin 50000) (k : Fin 10) (c : Fin 128) :
    (StableHlo.after hostOps1 W (Proc.devRef .tc main_v33) : S2x50000x10x128.Idx → EReal) (ix4 p n k c)
      = (W (Proc.devRef .tc main_v4) : S2x50000x384.Idx → EReal)
          (ix3 p (Cert.Agg.row (idxD W p n k)) ⟨256 + c.val, by omega⟩) := by
  have e := read_binary writes1 34 W (hop := rfl) (by decide) (by decide) (by decide)
  rw [e]
  refine (hg _ _ p n k c).trans ?_
  refine Eq.trans (congrArg (fun r : Fin 50000 =>
    (StableHlo.after hostOps1 W (Proc.devRef .tc main_v7) : S2x50000x128.Idx → EReal) (ix3 p r c)) (Fin.ext ?_))
    (read_v7 W p (Cert.Agg.row (idxD W p n k)) c)
  exact congrArg (fun v : BitVec 32 => min v.toInt.toNat (50000 - 1)) (read_v32 W p n k 0)

end Cert.KernelIdeal.HostRead

end
-- ==== Proof.HostRead2.lean ====
/-
  The host lines after the second kernel call, read at an index: each protein's output is its slab of the stacked
  result, the leading unit axis dropped.
-/
import proofs.«104521_j27058293965313_1_alg».proof.Proof.Gen.KernelIdeal.Launch
import proofs.«104521_j27058293965313_1_alg».proof.Proof.Spec
import proofs.«104521_j27058293965313_1_alg».proof.Proof.HostReadLayout

noncomputable section

namespace Cert.KernelIdeal.HostRead

open Cert.KernelIdeal Cert.KernelIdeal.Gen Idealize.ShloMosaic Idealize.ShloMosaic.ValueIdx Idealize.ShloMosaic.StableHlo

/-- The line writes, operation by operation, these buffers. -/
theorem writes2 : WritesAre (hostOps2 (F := Ideal)) [main_v35, main_v36, main_v37, main_v38] := by
  refine .cons ?_ (.cons ?_ (.cons ?_ (.cons ?_ .nil)))
  all_goals exact Finset.Subset.refl _

variable (W : Valuation τ sig (Elt Ideal))

/-- The first protein's output. -/
theorem read_v36 (n : Fin 50000) (c : Fin 128) :
    (StableHlo.after hostOps2 W (Proc.devRef .tc main_v36) : S50000x128.Idx → EReal) (ix2 n c)
      = (W (Proc.devRef .tc main_v34) : S2x50000x128.Idx → EReal) (ix3 (0 : Fin 2) n c) := by
  have e36 := read_reshape writes2 1 W (hop := rfl) (by decide) (by decide)
  have e35 := read_unary writes2 0 W (hop := rfl) (by decide) (by decide)
  have k34 := read_keep writes2 W (r := main_v34) (by decide)
  rw [k34] at e35
  rw [e36, e35]
  refine (shapeCast_1ab_ab_apply _ _ n c).trans ?_
  exact slice3_axis0_eq 0 _ _ (0 : Fin 1) n c (0 : Fin 2) rfl

/-- The second protein's output. -/
theorem read_v38 (n : Fin 50000) (c : Fin 128) :
    (StableHlo.after hostOps2 W (Proc.devRef .tc main_v38) : S50000x128.Idx → EReal) (ix2 n c)
      = (W (Proc.devRef .tc main_v34) : S2x50000x128.Idx → EReal) (ix3 (1 : Fin 2) n c) := by
  have e38 := read_reshape writes2 3 W (hop := rfl) (by decide) (by decide)
  have e37 := read_unary writes2 2 W (hop := rfl) (by decide) (by decide)
  have k34 := read_keep writes2 W (r := main_v34) (by decide)
  rw [k34] at e37
  rw [e38, e37]
  refine (shapeCast_1ab_ab_apply _ _ n c).trans ?_
  exact slice3_axis0_eq 1 _ _ (0 : Fin 1) n c (1 : Fin 2) rfl

end Cert.KernelIdeal.HostRead

end
-- ==== Proof.LibBatchedRowGather.lean ====
/-
  A batched row gather read at an index (general: any extents, no program).

  The operand is a stack of P tables of N rows and C channels; the start indices are, for each table, R × K row
  numbers (stored with a trailing unit axis). The result at (p, n, k, c) is table p's row named by the index at
  (p, n, k), channel c: the table axis is a batching axis (the result's coordinate p selects the table on both
  sides), the row axis is the one the start index addresses (and is collapsed: one row per index), and the channel
  axis is the offset axis (the whole row of C channels is taken). The row number is read as a signed integer and
  clamped into [0, N − 1].
-/
import Idealize.ShloMosaic.Lib.ValueIdx

namespace Cert.LibRowGather

open Idealize.ShloMosaic Idealize.ShloMosaic.ValueIdx

variable {α : Type}

/-- The dimension numbers of that gather: offset axis 3 of the result, collapsed axis 1 and batching axis 0 of the
    operand, batching axis 0 of the start indices, start index map [1], the index vector on axis 3, slices 1 × 1 × C. -/
abbrev rowsDims (P N R K C : Nat)
    (wf : GatherDims.WF ⟨3, ![P, N, C]⟩ ⟨4, ![P, R, K, 1]⟩ ⟨4, ![P, R, K, C]⟩ [3] [1] [0] [1] [0] 3 ![1, 1, C]) :
    GatherDims ⟨3, ![P, N, C]⟩ ⟨4, ![P, R, K, 1]⟩ ⟨4, ![P, R, K, C]⟩ where
  offsetDims := [3]
  collapsedSliceDims := [1]
  operandBatchingDims := [0]
  startIndicesBatchingDims := [0]
  startIndexMap := [1]
  indexVectorDim := 3
  sliceSizes := ![1, 1, C]
  wf := wf

/-- THE GATHER READ AT (p, n, k, c): table p at the row the index at (p, n, k, 0) names (signed, clamped), channel c. -/
theorem gather_rows_apply {P N R K C w : Nat} (hN : 0 < N)
    (wf : GatherDims.WF ⟨3, ![P, N, C]⟩ ⟨4, ![P, R, K, 1]⟩ ⟨4, ![P, R, K, C]⟩ [3] [1] [0] [1] [0] 3 ![1, 1, C])
    (x : (⟨3, ![P, N, C]⟩ : Shape).Idx → α) (idx : IVec ⟨4, ![P, R, K, 1]⟩ w)
    (p : Fin P) (n : Fin R) (k : Fin K) (c : Fin C) :
    Host.gather (rowsDims P N R K C wf) x idx (ix4 p n k c)
      = x (ix3 p ⟨min (idx (ix4 p n k (0 : Fin 1))).toInt.toNat (N - 1), by omega⟩ c) := by
  unfold Host.gather
  refine congrArg x (funext fun a => Fin.ext ?_)
  match a with
  | ⟨0, _⟩ =>
    -- the table axis: no start, no offset; the batching coordinate is the result's coordinate p
    show (rowsDims P N R K C wf).start (ix4 p n k c) idx 0 + (rowsDims P N R K C wf).batchCoord (ix4 p n k c) 0
      + (rowsDims P N R K C wf).offCoord (ix4 p n k c) 0 = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (rowsDims P N R K C wf).operandBatchingDims from List.mem_singleton.mpr rfl)]
    rfl
  | ⟨1, _⟩ =>
    -- the row axis: the clamped start index; it is neither a batching nor a kept axis
    show (rowsDims P N R K C wf).start (ix4 p n k c) idx 1 + (rowsDims P N R K C wf).batchCoord (ix4 p n k c) 1
      + (rowsDims P N R K C wf).offCoord (ix4 p n k c) 1 = min (idx (ix4 p n k (0 : Fin 1))).toInt.toNat (N - 1)
    rw [GatherDims.batchCoord_eq_zero _ _ _ (show (1 : Fin 3) ∉ [(0 : Fin 3)] by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims P N R K C wf).startIndexMap from List.mem_singleton.mpr rfl)]
    have hsi : (rowsDims P N R K C wf).siIdx (ix4 p n k c) ⟨List.idxOf (1 : Fin 3) (rowsDims P N R K C wf).startIndexMap,
        List.idxOf_lt_length_iff.2 (List.mem_singleton.mpr rfl)⟩ = ix4 p n k (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    -- the channel axis: no start, no batching; the offset coordinate is the result's coordinate c
    show (rowsDims P N R K C wf).start (ix4 p n k c) idx 2 + (rowsDims P N R K C wf).batchCoord (ix4 p n k c) 2
      + (rowsDims P N R K C wf).offCoord (ix4 p n k c) 2 = c.val
    rw [GatherDims.batchCoord_eq_zero _ _ _ (show (2 : Fin 3) ∉ [(0 : Fin 3)] by decide)]
    unfold GatherDims.start
    rw [dif_neg (show (2 : Fin 3) ∉ [(1 : Fin 3)] by decide)]
    simp only [Nat.zero_add, Nat.add_zero]
    unfold GatherDims.offCoord
    rw [dif_pos ((GatherDims.mem_sKept (rowsDims P N R K C wf) 2).mpr
      ⟨show (2 : Fin 3) ∉ [(1 : Fin 3)] by decide, show (2 : Fin 3) ∉ [(0 : Fin 3)] by decide⟩)]
    rfl

/-- The same for any dimension-numbers record with those seven field values (a printed program names its own record
    and carries its own proof of the conditions). -/
theorem gather_eq_rows_apply {P N R K C w : Nat} (hN : 0 < N)
    (d : GatherDims ⟨3, ![P, N, C]⟩ ⟨4, ![P, R, K, 1]⟩ ⟨4, ![P, R, K, C]⟩)
    (hod : d.offsetDims = [3]) (hcd : d.collapsedSliceDims = [1]) (hob : d.operandBatchingDims = [0])
    (hsb : d.startIndicesBatchingDims = [0]) (hsm : d.startIndexMap = [1]) (hiv : d.indexVectorDim = 3)
    (hss : d.sliceSizes = ![1, 1, C])
    (x : (⟨3, ![P, N, C]⟩ : Shape).Idx → α) (idx : IVec ⟨4, ![P, R, K, 1]⟩ w)
    (p : Fin P) (n : Fin R) (k : Fin K) (c : Fin C) :
    Host.gather d x idx (ix4 p n k c)
      = x (ix3 p ⟨min (idx (ix4 p n k (0 : Fin 1))).toInt.toNat (N - 1), by omega⟩ c) := by
  obtain ⟨od, cd, ob, sb, sm, iv, ss, wf⟩ := d
  dsimp only at hod hcd hob hsb hsm hiv hss
  subst hod hcd hob hsb hsm hiv hss
  exact gather_rows_apply hN wf x idx p n k c

end Cert.LibRowGather
-- ==== Proof.BodyValueGather.lean ====
/-
  The gather of the kernel program read at an index.

  The program gathers, for each of the two projected tables, the rows its neighbour indices name: the result at
  (p, n, k, c) is table p at the row the index at (p, n, k) names — read signed and clamped into the table —, channel c.
  This is the general batched row gather at the program's extents and its own dimension-numbers record.
-/
import proofs.«104521_j27058293965313_1_alg».proof.KernelIdeal
import proofs.«104521_j27058293965313_1_alg».proof.Proof.LibBatchedRowGather

namespace Cert.KernelIdeal.BodyValue

open Idealize.ShloMosaic Idealize.ShloMosaic.ValueIdx Cert.KernelIdeal

variable [Cert.KernelIdeal.Facts₀]

/-- The program's gather at (p, n, k, c): table p at the named row (signed, clamped into the 50000 rows), channel c. -/
theorem gatherK_apply (x : S2x50000x128.Idx → EReal) (idx : IVec S2x50000x10x1 32)
    (p : Fin 2) (n : Fin 50000) (k : Fin 10) (c : Fin 128) :
    Host.gather Cert.KernelIdeal.gather_S2x50000x128_S2x50000x10x1_S2x50000x10x128_3_1_0_0_1_3_11128 x idx (ix4 p n k c)
      = x (ix3 p ⟨min (idx (ix4 p n k (0 : Fin 1))).toInt.toNat (50000 - 1), by omega⟩ c) :=
  Cert.LibRowGather.gather_eq_rows_apply (by decide) _ rfl rfl rfl rfl rfl rfl rfl x idx p n k c

end Cert.KernelIdeal.BodyValue
-- ==== Proof.KernelIdealFinal.lean ====
/-
  The two results of the program, as functions of its arguments, over the extended reals.

  The buffers' contents are followed through the run's five items. The first stretch of host operations stacks the two
  node-feature arrays and joins the three weight matrices side by side; the first kernel region leaves the product of
  the two, so column block 0, 1, 2 of its output at (p, n, ·) is row n of protein p's features times Wsv, Wsr, Wdr. The
  second stretch slices those column blocks, stacks the neighbour tables, forms the masks (index > -1) and gathers, for
  every neighbour slot, the row of column block 1 (same-type) or 2 (different-type) its normalised, clamped index names.
  The second kernel region leaves the combine arithmetic of these five arrays, and the last stretch returns its two
  protein slices. Read at an index, each result is the layer's specification `Cert.Agg.out` of that protein's arguments.
-/
import proofs.«104521_j27058293965313_1_alg».proof.Proof.KernelIdealRun
import proofs.«104521_j27058293965313_1_alg».proof.Proof.KernelIdealValue0
import proofs.«104521_j27058293965313_1_alg».proof.Proof.KernelIdealValue1
import proofs.«104521_j27058293965313_1_alg».proof.Proof.HostRead0
import proofs.«104521_j27058293965313_1_alg».proof.Proof.HostRead1
import proofs.«104521_j27058293965313_1_alg».proof.Proof.HostRead2
import proofs.«104521_j27058293965313_1_alg».proof.Proof.BodyValueGather
import proofs.«104521_j27058293965313_1_alg».proof.Proof.Spec

set_option maxRecDepth 16384

noncomputable section

namespace Cert.KernelIdeal.KValue

open Cert.KernelIdeal Cert.KernelIdeal.Gen Cert.KernelIdeal.Run Cert.KernelIdeal.HostRead
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- Protein `p`'s node features, same-type and different-type neighbour tables, as the launch memory holds them. -/
def Zp (p : Fin 2) : S50000x128.Idx → EReal := fun i =>
  if p.val = 0 then (m ((c : Thread nD τ).loc main_arg0) : S50000x128.Idx → EReal) i
  else (m ((c : Thread nD τ).loc main_arg3) : S50000x128.Idx → EReal) i
def ISp (p : Fin 2) : S50000x10.Idx → BitVec 32 := fun i =>
  if p.val = 0 then (m ((c : Thread nD τ).loc main_arg1) : S50000x10.Idx → BitVec 32) i
  else (m ((c : Thread nD τ).loc main_arg4) : S50000x10.Idx → BitVec 32) i
def IDp (p : Fin 2) : S50000x10.Idx → BitVec 32 := fun i =>
  if p.val = 0 then (m ((c : Thread nD τ).loc main_arg2) : S50000x10.Idx → BitVec 32) i
  else (m ((c : Thread nD τ).loc main_arg5) : S50000x10.Idx → BitVec 32) i

/-! ## The arguments as the regions find them -/

theorem W2_arg1 : W2 m ρ c (Proc.devRef .tc main_arg1) = m ((c : Thread nD τ).loc main_arg1) :=
  (W2_of_ne m ρ c main_arg1 (by decide)).trans ((StableHlo.after_of_writes_sub hostOps0 _ hostOps0_writes (by decide)).trans rfl)
theorem W2_arg2 : W2 m ρ c (Proc.devRef .tc main_arg2) = m ((c : Thread nD τ).loc main_arg2) :=
  (W2_of_ne m ρ c main_arg2 (by decide)).trans ((StableHlo.after_of_writes_sub hostOps0 _ hostOps0_writes (by decide)).trans rfl)
theorem W2_arg4 : W2 m ρ c (Proc.devRef .tc main_arg4) = m ((c : Thread nD τ).loc main_arg4) :=
  (W2_of_ne m ρ c main_arg4 (by decide)).trans ((StableHlo.after_of_writes_sub hostOps0 _ hostOps0_writes (by decide)).trans rfl)
theorem W2_arg5 : W2 m ρ c (Proc.devRef .tc main_arg5) = m ((c : Thread nD τ).loc main_arg5) :=
  (W2_of_ne m ρ c main_arg5 (by decide)).trans ((StableHlo.after_of_writes_sub hostOps0 _ hostOps0_writes (by decide)).trans rfl)

theorem idxS_eq (p : Fin 2) (n : Fin 50000) (k : Fin 10) : idxS (W2 m ρ c) p n k = ISp m c p (ix2 n k) := by
  unfold idxS ISp
  rw [W2_arg1, W2_arg4]
theorem idxD_eq (p : Fin 2) (n : Fin 50000) (k : Fin 10) : idxD (W2 m ρ c) p n k = IDp m c p (ix2 n k) := by
  unfold idxD IDp
  rw [W2_arg2, W2_arg5]

/-! ## The first region's output: the three projections side by side -/

theorem W2_v4 : (W2 m ρ c (Proc.devRef .tc main_v4) : S2x50000x384.Idx → EReal)
    = G0 (V1 m ρ c main_v3) (V1 m ρ c main_v0) :=
  (W2_arr m ρ c 2).trans (final0 (V1 m ρ) c)

theorem v3_read (p : Fin 2) (n : Fin 50000) (f : Fin 128) :
    (V1 m ρ c main_v3 : S2x50000x128.Idx → EReal) (ix3 p n f) = Zp m c p (ix2 n f) :=
  read_v3 (W0 m ρ c) p n f

/-- The product read at explicit coordinates. -/
theorem G0_apply (Zb : S2x50000x128.Idx → EReal) (Wc : S128x384.Idx → EReal) (p : Fin 2) (n : Fin 50000) (q : Fin 384) :
    G0 Zb Wc (ix3 p n q) = ∑ f : Fin 128, Zb (ix3 p n f) * Wc (ix2 f q) := rfl

theorem proj_a (p : Fin 2) (n : Fin 50000) (ch : Fin 128) :
    (W2 m ρ c (Proc.devRef .tc main_v4) : S2x50000x384.Idx → EReal) (ix3 p n ⟨ch.val, by omega⟩)
      = Cert.Agg.proj (Zp m c p) (m ((c : Thread nD τ).loc main_arg6)) n ch := by
  have h : G0 (V1 m ρ c main_v3) (V1 m ρ c main_v0) (ix3 p n ⟨ch.val, by omega⟩)
      = Cert.Agg.proj (Zp m c p) (m ((c : Thread nD τ).loc main_arg6)) n ch := by
    rw [G0_apply]
    unfold Cert.Agg.proj
    refine Finset.sum_congr rfl fun f _ => ?_
    rw [v3_read]
    exact congrArg (fun x : EReal => Zp m c p (ix2 n f) * x) (read_v0_a (W0 m ρ c) f ch)
  exact (congrFun (W2_v4 m ρ c) _).trans h
theorem proj_b (p : Fin 2) (n : Fin 50000) (ch : Fin 128) :
    (W2 m ρ c (Proc.devRef .tc main_v4) : S2x50000x384.Idx → EReal) (ix3 p n ⟨128 + ch.val, by omega⟩)
      = Cert.Agg.proj (Zp m c p) (m ((c : Thread nD τ).loc main_arg7)) n ch := by
  have h : G0 (V1 m ρ c main_v3) (V1 m ρ c main_v0) (ix3 p n ⟨128 + ch.val, by omega⟩)
      = Cert.Agg.proj (Zp m c p) (m ((c : Thread nD τ).loc main_arg7)) n ch := by
    rw [G0_apply]
    unfold Cert.Agg.proj
    refine Finset.sum_congr rfl fun f _ => ?_
    rw [v3_read]
    exact congrArg (fun x : EReal => Zp m c p (ix2 n f) * x) (read_v0_b (W0 m ρ c) f ch)
  exact (congrFun (W2_v4 m ρ c) _).trans h
theorem proj_c (p : Fin 2) (n : Fin 50000) (ch : Fin 128) :
    (W2 m ρ c (Proc.devRef .tc main_v4) : S2x50000x384.Idx → EReal) (ix3 p n ⟨256 + ch.val, by omega⟩)
      = Cert.Agg.proj (Zp m c p) (m ((c : Thread nD τ).loc main_arg8)) n ch := by
  have h : G0 (V1 m ρ c main_v3) (V1 m ρ c main_v0) (ix3 p n ⟨256 + ch.val, by omega⟩)
      = Cert.Agg.proj (Zp m c p) (m ((c : Thread nD τ).loc main_arg8)) n ch := by
    rw [G0_apply]
    unfold Cert.Agg.proj
    refine Finset.sum_congr rfl fun f _ => ?_
    rw [v3_read]
    exact congrArg (fun x : EReal => Zp m c p (ix2 n f) * x) (read_v0_c (W0 m ρ c) f ch)
  exact (congrFun (W2_v4 m ρ c) _).trans h

/-! ## The second region's output -/

theorem W4_v34 : (W4 m ρ c (Proc.devRef .tc main_v34) : S2x50000x128.Idx → EReal)
    = G1 (V3 m ρ c main_v5) (V3 m ρ c main_v26) (V3 m ρ c main_v33) (V3 m ρ c main_v16) (V3 m ρ c main_v19) :=
  (W4_arr m ρ c 5).trans (final1 (V3 m ρ) c)

/-- Entry (p, n, ch) of the second region's output: the combine arithmetic of protein `p`'s projections. -/
theorem out_p (p : Fin 2) (n : Fin 50000) (ch : Fin 128) :
    (W4 m ρ c (Proc.devRef .tc main_v34) : S2x50000x128.Idx → EReal) (ix3 p n ch)
      = comb (Cert.Agg.proj (Zp m c p) (m ((c : Thread nD τ).loc main_arg6)) n ch)
          (fun k => Cert.Agg.proj (Zp m c p) (m ((c : Thread nD τ).loc main_arg7)) (Cert.Agg.row (ISp m c p (ix2 n k))) ch)
          (fun k => Cert.Agg.msk (ISp m c p (ix2 n k)))
          (fun k => Cert.Agg.proj (Zp m c p) (m ((c : Thread nD τ).loc main_arg8)) (Cert.Agg.row (IDp m c p (ix2 n k))) ch)
          (fun k => Cert.Agg.msk (IDp m c p (ix2 n k))) := by
  rw [W4_v34]
  show comb ((V3 m ρ c main_v5 : S2x50000x128.Idx → EReal) (ix3 p n ch))
      (fun k => (V3 m ρ c main_v26 : S2x50000x10x128.Idx → EReal) (ix4 p n k ch))
      (fun k => (V3 m ρ c main_v16 : S2x50000x10.Idx → EReal) (ix3 p n k))
      (fun k => (V3 m ρ c main_v33 : S2x50000x10x128.Idx → EReal) (ix4 p n k ch))
      (fun k => (V3 m ρ c main_v19 : S2x50000x10.Idx → EReal) (ix3 p n k)) = _
  have h5 : (V3 m ρ c main_v5 : S2x50000x128.Idx → EReal) (ix3 p n ch)
      = Cert.Agg.proj (Zp m c p) (m ((c : Thread nD τ).loc main_arg6)) n ch :=
    (read_v5 (W2 m ρ c) p n ch).trans (proj_a m ρ c p n ch)
  have h26 : ∀ k : Fin 10, (V3 m ρ c main_v26 : S2x50000x10x128.Idx → EReal) (ix4 p n k ch)
      = Cert.Agg.proj (Zp m c p) (m ((c : Thread nD τ).loc main_arg7)) (Cert.Agg.row (ISp m c p (ix2 n k))) ch := fun k => by
    refine (read_v26 (W2 m ρ c) (BodyValue.gatherK_apply) p n k ch).trans ?_
    rw [idxS_eq]
    exact proj_b m ρ c p _ ch
  have h33 : ∀ k : Fin 10, (V3 m ρ c main_v33 : S2x50000x10x128.Idx → EReal) (ix4 p n k ch)
      = Cert.Agg.proj (Zp m c p) (m ((c : Thread nD τ).loc main_arg8)) (Cert.Agg.row (IDp m c p (ix2 n k))) ch := fun k => by
    refine (read_v33 (W2 m ρ c) (BodyValue.gatherK_apply) p n k ch).trans ?_
    rw [idxD_eq]
    exact proj_c m ρ c p _ ch
  have h16 : ∀ k : Fin 10, (V3 m ρ c main_v16 : S2x50000x10.Idx → EReal) (ix3 p n k) = Cert.Agg.msk (ISp m c p (ix2 n k)) := fun k => by
    refine (read_v16 (W2 m ρ c) p n k).trans ?_
    rw [idxS_eq]
  have h19 : ∀ k : Fin 10, (V3 m ρ c main_v19 : S2x50000x10.Idx → EReal) (ix3 p n k) = Cert.Agg.msk (IDp m c p (ix2 n k)) := fun k => by
    refine (read_v19 (W2 m ρ c) p n k).trans ?_
    rw [idxD_eq]
  rw [h5, funext h26, funext h16, funext h33, funext h19]

/-- The combine arithmetic of one protein's projections is the layer's specification at that entry. -/
theorem comb_eq_out (Z : S50000x128.Idx → EReal) (IS ID : S50000x10.Idx → BitVec 32) (Wsv Wsr Wdr : S128x128.Idx → EReal)
    (n : Fin 50000) (ch : Fin 128) :
    comb (Cert.Agg.proj Z Wsv n ch) (fun k => Cert.Agg.proj Z Wsr (Cert.Agg.row (IS (ix2 n k))) ch) (fun k => Cert.Agg.msk (IS (ix2 n k)))
        (fun k => Cert.Agg.proj Z Wdr (Cert.Agg.row (ID (ix2 n k))) ch) (fun k => Cert.Agg.msk (ID (ix2 n k)))
      = Cert.Agg.out Z IS ID Wsv Wsr Wdr (ix2 n ch) := rfl

theorem Zp_zero : Zp m c 0 = m ((c : Thread nD τ).loc main_arg0) := funext fun i => if_pos rfl
theorem Zp_one : Zp m c 1 = m ((c : Thread nD τ).loc main_arg3) := funext fun i => if_neg (by decide)
theorem ISp_zero : ISp m c 0 = m ((c : Thread nD τ).loc main_arg1) := funext fun i => if_pos rfl
theorem ISp_one : ISp m c 1 = m ((c : Thread nD τ).loc main_arg4) := funext fun i => if_neg (by decide)
theorem IDp_zero : IDp m c 0 = m ((c : Thread nD τ).loc main_arg2) := funext fun i => if_pos rfl
theorem IDp_one : IDp m c 1 = m ((c : Thread nD τ).loc main_arg5) := funext fun i => if_neg (by decide)

/-- The first result: the layer's specification of the first protein's arguments. -/
theorem result0 : (W5 m ρ c (Proc.devRef .tc main_v36) : S50000x128.Idx → EReal)
    = Cert.Agg.out (m ((c : Thread nD τ).loc main_arg0)) (m ((c : Thread nD τ).loc main_arg1)) (m ((c : Thread nD τ).loc main_arg2))
        (m ((c : Thread nD τ).loc main_arg6)) (m ((c : Thread nD τ).loc main_arg7)) (m ((c : Thread nD τ).loc main_arg8)) := by
  funext j
  obtain ⟨n, ch, rfl⟩ : ∃ (n : Fin 50000) (ch : Fin 128), j = ix2 n ch := ⟨j 0, j 1, eq_ix2 j⟩
  refine (read_v36 (W4 m ρ c) n ch).trans ?_
  rw [out_p, Zp_zero, ISp_zero, IDp_zero]
  exact comb_eq_out _ _ _ _ _ _ n ch

/-- The second result: the layer's specification of the second protein's arguments. -/
theorem result1 : (W5 m ρ c (Proc.devRef .tc main_v38) : S50000x128.Idx → EReal)
    = Cert.Agg.out (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  funext j
  obtain ⟨n, ch, rfl⟩ : ∃ (n : Fin 50000) (ch : Fin 128), j = ix2 n ch := ⟨j 0, j 1, eq_ix2 j⟩
  refine (read_v38 (W4 m ρ c) n ch).trans ?_
  rw [out_p, Zp_one, ISp_one, IDp_one]
  exact comb_eq_out _ _ _ _ _ _ n ch

/-- THE VALUE RUN: every weakly fair execution terminates, nothing faulting, with the two results at the layer's
    specification of the two proteins' arguments and every argument as launched. -/
theorem run_value : θ_run (defs (F := Ideal)) (onTc (τ := τ) (main (F := Ideal))) ⟨m, fun _ => 0, ρ⟩ (fun r => ∀ c : Dev nD,
      r.2.mem ((c.tc : Thread nD τ).loc main_v36) = Cert.Agg.out (m ((c.tc : Thread nD τ).loc main_arg0)) (m ((c.tc : Thread nD τ).loc main_arg1)) (m ((c.tc : Thread nD τ).loc main_arg2))
        (m ((c.tc : Thread nD τ).loc main_arg6)) (m ((c.tc : Thread nD τ).loc main_arg7)) (m ((c.tc : Thread nD τ).loc main_arg8))
      ∧ r.2.mem ((c.tc : Thread nD τ).loc main_v38) = Cert.Agg.out (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v36 (by decide))).trans (result0 m ρ c),
    (h c _ (mem_uc main_v38 (by decide))).trans (result1 m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (Run.run m ρ)

end Cert.KernelIdeal.KValue

end
-- ==== Proof.RefGather.lean ====
/-
  The reference's row gather read at an index.

  Gathering rows of a table `x : [50000, 128]` at start indices `idx : [50000, 10, 1]` (offset axis 2, collapsed
  axis 0, start index map [0], index vector on axis 2, slices of one row): result element (n, k, c) is the table at
  column c of the row the start index `idx (n, k, 0)` names, read signed and clamped into the table.
-/
import proofs.«104521_j27058293965313_1_alg».proof.Proof.Gen.ReferenceIdeal
import Idealize.ShloMosaic.Lib.ValueIdx

noncomputable section

namespace Cert.RefValue

open Cert.ReferenceIdeal Cert.ReferenceIdeal.Gen Idealize.ShloMosaic Idealize.ShloMosaic.ValueIdx

/-- The gather's dimension numbers. -/
abbrev G : GatherDims S50000x128 S50000x10x1 S50000x10x128 :=
  gather_S50000x128_S50000x10x1_S50000x10x128_2_0_n_n_0_2_1128

/-- Axis 0 of the table is the axis the start index names, and the collapsed one. -/
theorem mem0 : (0 : Fin 2) ∈ ([0] : List (Fin 2)) := List.mem_singleton.mpr rfl
/-- Axis 1 of the table is neither. -/
theorem not_mem1 : (1 : Fin 2) ∉ ([0] : List (Fin 2)) := by decide

/-- THE GATHER READ AT (n, k, c): the table at column c of the row the start index idx (n, k, 0) names, read signed
    and clamped into [0, 49999]. -/
theorem gather_apply {α : Type} {w : Nat} (x : S50000x128.Idx → α) (idx : IVec S50000x10x1 w)
    (n : Fin 50000) (k : Fin 10) (c : Fin 128) :
    Host.gather G x idx (ix3 n k c)
      = x (ix2 (⟨min (idx (ix3 n k (0 : Fin 1))).toInt.toNat (50000 - 1), by omega⟩ : Fin 50000) c) := by
  unfold Host.gather
  congr 1
  funext a
  refine Fin.ext ?_
  match a with
  | ⟨0, _⟩ =>
    show G.start (ix3 n k c) idx 0 + G.batchCoord (ix3 n k c) 0 + G.offCoord (ix3 n k c) 0 = _
    rw [GatherDims.batchCoord_eq_zero _ _ _ List.not_mem_nil,
      GatherDims.offCoord_eq_zero _ _ _ (fun hm => ((GatherDims.mem_sKept _ _).mp hm).1 mem0)]
    simp only [Nat.add_zero]
    unfold GatherDims.start
    rw [dif_pos (show (0 : Fin 2) ∈ G.startIndexMap from mem0)]
    have hsi : G.siIdx (ix3 n k c) ⟨List.idxOf (0 : Fin 2) G.startIndexMap,
        List.idxOf_lt_length_iff.2 mem0⟩ = ix3 n k (0 : Fin 1) := by
      funext b; refine Fin.ext ?_
      match b with
      | ⟨0, _⟩ => rfl
      | ⟨1, _⟩ => rfl
      | ⟨2, _⟩ => rfl
    rw [hsi]
    rfl
  | ⟨1, _⟩ =>
    show G.start (ix3 n k c) idx 1 + G.batchCoord (ix3 n k c) 1 + G.offCoord (ix3 n k c) 1 = c.val
    rw [GatherDims.batchCoord_eq_zero _ _ _ List.not_mem_nil]
    have hst : G.start (ix3 n k c) idx 1 = 0 := by
      unfold GatherDims.start
      rw [dif_neg (show (1 : Fin 2) ∉ G.startIndexMap from not_mem1)]
    rw [hst]
    have hk : (1 : Fin 2) ∈ G.sKept := (GatherDims.mem_sKept _ _).mpr ⟨not_mem1, List.not_mem_nil⟩
    unfold GatherDims.offCoord
    rw [dif_pos hk]
    simp only [Nat.zero_add]
    rfl

end Cert.RefValue

end
-- ==== Proof.RefCount.lean ====
/-
  Counting the neighbour slots that count, in 32-bit integers, and reading the count as a real.

  Ten one-bit flags, each widened to 32 bits and added up from 0: the sum is at most 10, so 32-bit addition does
  not wrap and the result is the number of set flags. Bounded below by 1 as a signed integer and read as a real,
  it is the larger of the real sum of the flags and 1.
-/
import Idealize.ShloMosaic.Lib.ValueIdx
import Idealize.ShloMosaic.PureOps.Ideal.Laws
import Idealize.ShloMosaic.PureOps.Reduce

noncomputable section

namespace Cert.RefValue

open Idealize.ShloMosaic

/-- Adding up widened flags from 0 over any set of slots gives the number of set flags among them, as a 32-bit word. -/
theorem fold_bits (b : Fin 10 → BitVec 1) (s : Finset (Fin 10)) :
    s.fold IntOp.addi 0#32 (fun k => (b k).setWidth 32) = BitVec.ofNat 32 (∑ k ∈ s, (b k).toNat) := by
  induction s using Finset.induction_on with
  | empty => rfl
  | insert a s ha ih =>
    rw [Finset.fold_insert ha, ih, Finset.sum_insert ha]
    show (b a).setWidth 32 + BitVec.ofNat 32 _ = _
    rw [BitVec.ofNat_add, BitVec.ofNat_toNat]

/-- At most ten flags are set. -/
theorem count_le (b : Fin 10 → BitVec 1) : ∑ k : Fin 10, (b k).toNat ≤ 10 := by
  calc ∑ k : Fin 10, (b k).toNat ≤ ∑ _k : Fin 10, 1 :=
        Finset.sum_le_sum (fun k _ => by have := (b k).isLt; omega)
    _ = 10 := by simp

/-- On a count of at most ten, the signed maximum with 1 is the integers' maximum with 1. -/
theorem maxsi_small (S : ℕ) (hS : S ≤ 10) : (IntOp.maxsi (BitVec.ofNat 32 S) 1#32).toInt = max (S : ℤ) 1 := by
  interval_cases S <;> decide

/-- The real sum of the flags is the real reading of their number. -/
theorem sum_coe (b : Fin 10 → BitVec 1) (s : Finset (Fin 10)) :
    ∑ k ∈ s, (((b k).toNat : ℝ) : EReal) = (((∑ k ∈ s, (b k).toNat : ℕ) : ℝ) : EReal) := by
  induction s using Finset.induction_on with
  | empty => simp
  | insert a s ha ih =>
    rw [Finset.sum_insert ha, Finset.sum_insert ha, ih, Nat.cast_add, EReal.coe_add]

/-- The bit pattern 0x3F800000 is the real number 1. -/
theorem ofBits_one_f32 : Ideal.ofBits .f32 0x3F800000#32 = 1 := by
  simp [Ideal.ofBits, Ideal.ieee, -EReal.coe_mul]; norm_num

/-- THE COUNT LAW: the widened flags added up from 0, bounded below by 1 and read signed, are the larger of the real
    sum of the flags and 1. -/
theorem count_law (b : Fin 10 → BitVec 1) :
    (((IntOp.maxsi ((Finset.univ : Finset (Fin 10)).fold IntOp.addi 0#32 (fun k => (b k).setWidth 32)) 1#32).toInt : ℝ) : EReal)
      = max (∑ k : Fin 10, (((b k).toNat : ℝ) : EReal)) (Ideal.ofBits .f32 0x3F800000#32) := by
  rw [fold_bits, maxsi_small _ (count_le b), sum_coe, ofBits_one_f32]
  generalize (∑ k : Fin 10, (b k).toNat) = S
  rcases Nat.eq_zero_or_pos S with rfl | hS
  · simp
  · have h1 : (1 : EReal) ≤ ((S : ℝ) : EReal) := by
      rw [← EReal.coe_one, EReal.coe_le_coe_iff]; exact_mod_cast hS
    rw [max_eq_left h1, max_eq_left (by exact_mod_cast hS)]
    simp

end Cert.RefValue

end
-- ==== Proof.RefValue.lean ====
/-
  The reference program computes the layer `Cert.Agg.out`.

  Read one result element at a time: the three matrix products are the projections; the gathered rows are the
  projected rows the slots name; the mask is the slot's weight; the integer count, bounded below by 1 and read as a
  real, is the divisor; the final maximum against 0 is the cut below at zero.
-/
import proofs.«104521_j27058293965313_1_alg».proof.Proof.Gen.ReferenceIdeal.Read
import proofs.«104521_j27058293965313_1_alg».proof.Proof.Spec
import proofs.«104521_j27058293965313_1_alg».proof.Proof.RefGather
import proofs.«104521_j27058293965313_1_alg».proof.Proof.RefCount

noncomputable section

namespace Cert.RefValue

open Cert.ReferenceIdeal Cert.ReferenceIdeal.Gen Idealize.ShloMosaic Idealize.ShloMosaic.ValueIdx Idealize.SL.Sem Idealize.ShloMosaic.TcCoe
open Cert.ReferenceIdeal.Read Idealize.ShloMosaic.StableHlo

/-- A float array [50000, 128] at the ideal values. -/
abbrev AZ := (⟨S50000x128, .f32⟩ : BufTy).Contents (Elt Ideal)
/-- An index array [50000, 10]. -/
abbrev AI := (⟨S50000x10, .i32⟩ : BufTy).Contents (Elt Ideal)
/-- A weight matrix [128, 128] at the ideal values. -/
abbrev AW := (⟨S128x128, .f32⟩ : BufTy).Contents (Elt Ideal)

/-- The first matrix product read at (n, c) is the projection. -/
theorem proj_read0 (Z : AZ) (W : AW) (n : Fin 50000) (c : Fin 128) :
    val_main_v0 (F := Ideal) Z W (ix2 n c) = Cert.Agg.proj Z W n c := by
  rw [val_main_v0_apply]
  unfold Cert.Agg.proj
  refine Finset.sum_congr rfl fun f _ => ?_
  have el : lidx_main_v0 (ix2 n c) f = ix2 n f := funext fun a => Fin.ext (by
    match a with
    | ⟨0, _⟩ => rfl
    | ⟨1, _⟩ => rfl)
  have er : ridx_main_v0 (ix2 n c) f = ix2 f c := funext fun a => Fin.ext (by
    match a with
    | ⟨0, _⟩ => rfl
    | ⟨1, _⟩ => rfl)
  rw [el, er]

/-- The other two products are the same function of their operands. -/
theorem v1_eq (Z : AZ) (W : AW) : val_main_v1 (F := Ideal) Z W = val_main_v0 (F := Ideal) Z W := rfl
theorem v2_eq (Z : AZ) (W : AW) : val_main_v2 (F := Ideal) Z W = val_main_v0 (F := Ideal) Z W := rfl

/-- The start index of slot (n, k): the slot's index with a negative one counted from the end. -/
theorem start_read (I : AI) (n : Fin 50000) (k : Fin 10) :
    val_main_v12 (F := Ideal) I (ix3 n k (0 : Fin 1)) = Cert.Agg.nrm (I (ix2 n k)) := by
  rw [val_main_v12_apply]
  have e : idx_main_v12 (ix3 n k (0 : Fin 1)) = ix2 n k := funext fun a => Fin.ext (by
    match a with
    | ⟨0, _⟩ => rfl
    | ⟨1, _⟩ => rfl)
  rw [e, val_main_v11_apply, val_main_v8_apply, val_main_v10_apply, val_main_v7_apply, val_main_v9_apply]
  rfl

/-- The gather read at (n, k, c), given the value of its start index. -/
theorem gather_at {α : Type} {w : Nat} (x : S50000x128.Idx → α) (idx : IVec S50000x10x1 w)
    (n : Fin 50000) (k : Fin 10) (c : Fin 128) (v : BitVec w) (hv : idx (ix3 n k (0 : Fin 1)) = v) :
    Host.gather G x idx (ix3 n k c)
      = x (ix2 (⟨min v.toInt.toNat (50000 - 1), by omega⟩ : Fin 50000) c) := by
  subst hv
  exact gather_apply x idx n k c

/-- The gathered row of slot (n, k) at channel c is the projection of the row the slot names. -/
theorem gather_read (Z : AZ) (I : AI) (W : AW) (n : Fin 50000) (k : Fin 10) (c : Fin 128) :
    val_main_v13 (F := Ideal) Z I W (ix3 n k c) = Cert.Agg.proj Z W (Cert.Agg.row (I (ix2 n k))) c := by
  unfold val_main_v13
  refine (gather_at _ _ n k c _ (start_read I n k)).trans ?_
  rw [v1_eq]
  exact proj_read0 Z W _ c

/-- The mask read at (n, k, c) is the slot's weight. -/
theorem mask_read (I : AI) (n : Fin 50000) (k : Fin 10) (c : Fin 128) :
    val_main_v16 (F := Ideal) I (ix3 n k c) = Cert.Agg.msk (I (ix2 n k)) := by
  rw [val_main_v16_apply, val_main_v15_apply, val_main_v14_apply]
  have e : idx_main_v14 (idx_main_v16 (ix3 n k c)) = ix2 n k := funext fun a => Fin.ext (by
    match a with
    | ⟨0, _⟩ => rfl
    | ⟨1, _⟩ => rfl)
  rw [e, val_main_v4_apply, val_main_v3_apply]
  rfl

/-- The reduced index n with slot k put back is (n, k). -/
theorem lift_ix2 (h : S50000x10.Reduces [1] S50000) (n : Fin 50000) (k : Fin (S50000x10.size 1)) :
    h.lift (ix1 n) k = ix2 n (⟨k.val, k.isLt⟩ : Fin 10) := by
  funext c; apply Fin.ext
  fin_cases c <;> rfl

/-- The integer count of node n: the widened flags of its ten slots added up from 0. -/
theorem count_read (I : AI) (n : Fin 50000) :
    val_main_v30 (F := Ideal) I (ix1 n)
      = (Finset.univ : Finset (Fin 10)).fold IntOp.addi 0#32 (fun k => (Cert.Agg.bit (I (ix2 n k))).setWidth 32) := by
  unfold val_main_v30
  have h : S50000x10.Reduces [1] S50000 := by decide
  refine (Host.reduce_eq_fold_single IntOp.addi _ _ reducesTo_S50000x10_S50000_d1 h h_S_ (ix1 n)).trans ?_
  have hf : (val_main_v29 (F := Ideal) I ∘ h.lift (ix1 n))
      = fun k : Fin 10 => (Cert.Agg.bit (I (ix2 n k))).setWidth 32 := funext fun k => by
    show val_main_v29 (F := Ideal) I (h.lift (ix1 n) k) = _
    rw [lift_ix2 h n k, val_main_v29_apply, val_main_v4_apply, val_main_v3_apply]
    rfl
  exact congrArg (fun f => Finset.fold IntOp.addi 0#32 f (Finset.univ : Finset (Fin 10))) hf

/-- The divisor read at (n, c): the number of counted slots of node n, at least one. -/
theorem div_read (I : AI) (n : Fin 50000) (c : Fin 128) :
    val_main_v42 (F := Ideal) I (ix2 n c)
      = max (∑ k : Fin 10, Cert.Agg.msk (I (ix2 n k))) (Ideal.ofBits .f32 0x3F800000#32) := by
  rw [val_main_v42_apply, val_main_v34_apply, val_main_v33_apply, val_main_v32_apply]
  have e : idx_main_v34 (idx_main_v42 (ix2 n c)) = ix1 n := funext fun a => Fin.ext (by
    match a with
    | ⟨0, _⟩ => rfl)
  rw [e, count_read, val_main_v31_apply]
  exact count_law (fun k => Cert.Agg.bit (I (ix2 n k)))

/-- One aggregate read at (n, c). -/
theorem agg_read (Z : AZ) (I : AI) (W : AW) (n : Fin 50000) (c : Fin 128) :
    val_main_v43 (F := Ideal) Z I W (ix2 n c) = Cert.Agg.agg Z W I n c := by
  rw [val_main_v43_apply, val_main_v41_apply, div_read]
  unfold Cert.Agg.agg
  refine congrArg (fun s => Ideal.div s _) ?_
  rw [val_main_cst_apply]
  refine (congrArg (· + _) Ideal.ofBits_zero_f32).trans ?_
  rw [zero_add]
  refine Finset.sum_congr rfl fun k _ => ?_
  have e : idx_main_v41 (ix2 n c) k = ix3 n k c := funext fun a => Fin.ext (by
    match a with
    | ⟨0, _⟩ => rfl
    | ⟨1, _⟩ => rfl
    | ⟨2, _⟩ => rfl)
  rw [e, val_main_v17_apply, gather_read, mask_read]
  rfl

/-- The second aggregate is the same function of its operands as the first. -/
theorem v46_eq (Z : AZ) (I : AI) (W : AW) : val_main_v46 (F := Ideal) Z I W = val_main_v43 (F := Ideal) Z I W := rfl

/-- THE REFERENCE'S VALUE: the first result, as a function of its six arguments, is the layer's output. -/
theorem result_eq (Z : AZ) (IS ID : AI) (Wsv Wsr Wdr : AW) :
    val_main_v49 (F := Ideal) Z IS ID Wsv Wsr Wdr = Cert.Agg.out Z IS ID Wsv Wsr Wdr := by
  funext j
  obtain ⟨n, c, rfl⟩ : ∃ n c, j = ix2 n c := ⟨j 0, j 1, eq_ix2 j⟩
  rw [val_main_v49_apply, val_main_v48_apply, val_main_v47_apply, v46_eq, agg_read, agg_read, proj_read0,
    val_main_call0_v0_apply, val_main_call0_cst_apply]
  rfl

/-- THE REFERENCE'S RUN: every weakly fair execution terminates with each of the two results at the layer's output
    of its protein's three arrays and the three shared weight matrices, and the nine arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49)
          = Cert.Agg.out (m ((c.tc : Thread nD τ).loc main_arg0)) (m ((c.tc : Thread nD τ).loc main_arg1))
              (m ((c.tc : Thread nD τ).loc main_arg2)) (m ((c.tc : Thread nD τ).loc main_arg6))
              (m ((c.tc : Thread nD τ).loc main_arg7)) (m ((c.tc : Thread nD τ).loc main_arg8))
      ∧ r.2.mem ((c.tc : Thread nD τ).loc main_v99)
          = Cert.Agg.out (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c =>
      ⟨(h c).1.trans ((val_main_v49_eq _ _ _ _ _ _).trans (result_eq _ _ _ _ _ _)),
        (h c).2.1.trans ((val_main_v49_eq _ _ _ _ _ _).trans (result_eq _ _ _ _ _ _)),
        (h c).2.2⟩)
    (Cert.ReferenceIdeal.Value.run (F := Ideal) m ρ)

end Cert.RefValue

end
-- ==== Proof.lean ====
/-
  The certificate's five claims for the two-protein graph-convolution layer.

  Both printed programs of the kernel run as three stretches of host operations around two pipelined kernel regions; the
  run of that list of items (Proof/KernelRun.lean at the word level, Proof/KernelIdealRun.lean over the extended reals)
  terminates, faults nowhere and ends with every buffer at the last contents of a fold through the items, in which no item
  writes an argument: the two frame claims. The reference is a straight line of host operations whose run is generated;
  its frame is that run with the results dropped. The idealization rewrote no operation, so `preserves` is trivial. For
  the algebraic claim both programs' results are the SAME function `Cert.Agg.out` of a protein's arguments — the node's own
  projection plus the two masked means over its ten neighbour slots of the projected rows the slots name, cut below at
  zero (Proof/Spec.lean): the kernel's by following the buffers through its run (Proof/KernelIdealFinal.lean), the
  reference's by reading its generated run one operation at a time (Proof/RefValue.lean). No finiteness of the inputs is
  used: the two sides differ only in tiling, in the order in which equal terms are named, and in counting the valid
  slots as a float sum of 0/1 masks against an integer count converted to float.
-/
import proofs.«104521_j27058293965313_1_alg».proof.Defs
import proofs.«104521_j27058293965313_1_alg».proof.Proof.Gen.Kernel
import proofs.«104521_j27058293965313_1_alg».proof.Proof.Gen.KernelIdeal
import proofs.«104521_j27058293965313_1_alg».proof.Proof.Gen.ReferenceIdeal
import proofs.«104521_j27058293965313_1_alg».proof.Proof.Gen.Pre_finite_inputs
import proofs.«104521_j27058293965313_1_alg».proof.Proof.KernelRun
import proofs.«104521_j27058293965313_1_alg».proof.Proof.KernelIdealFinal
import proofs.«104521_j27058293965313_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Run.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.RefValue.run m ρ)

/-- Both runs end with the results at `Cert.Agg.out` of the arguments, and the two memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KValue.run_value m ρ, ?_⟩
  refine (θ_run Cert.ReferenceIdeal.defs _ _).mono (fun _ h c => ⟨(h c).1.trans ?_, (h c).2.1.trans ?_, (h c).2.2⟩)
    (Cert.RefValue.run m' ρ')
  · obtain ⟨h0, h1, h2, h3, h4, h5, h6, h7, h8⟩ := hagree c
    rw [h0, h1, h2, h6, h7, h8]
  · obtain ⟨h0, h1, h2, h3, h4, h5, h6, h7, h8⟩ := hagree c
    rw [h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
